-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1024 : Shape := ⟨3, ![64, 128, 1024]⟩
abbrev S256x128x5 : Shape := ⟨3, ![256, 128, 5]⟩
abbrev S256 : Shape := ⟨1, ![256]⟩
abbrev S_ : Shape := ⟨0, ![]⟩

class Facts : Prop where
  bcast_S_S64x128x1024 : S_.BroadcastsInDim S64x128x1024 (![] : Fin 0 → Fin S64x128x1024.rank)
  reducesTo_S64x128x1024_S_d0_1_2 : S64x128x1024.ReducesTo [0, 1, 2] S_
  h_S_ : 0 < S_.numel
  bcast_S_S256x128x5 : S_.BroadcastsInDim S256x128x5 (![] : Fin 0 → Fin S256x128x5.rank)
  reducesTo_S256x128x5_S_d0_1_2 : S256x128x5.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S64x128x1024 .f32) (main_arg1 : FVec F S256x128x5 .f32) (main_arg2 : FVec F S256 .f32) (main_arg3 : FVec F S256 .f32) : IVec S_ 1 :=
  let main_v0 : FVec F S64x128x1024 .f32 := Host.absf main_arg0
  let main_cst : FVec F S_ .f32 := constant S_ .f32 0x7F800000#32
  let main_v1 : FVec F S64x128x1024 .f32 := broadcastInDim S64x128x1024 ![] bcast_S_S64x128x1024 main_cst
  let main_v2 : IVec S64x128x1024 1 := cmpf .olt main_v0 main_v1
  let main_c : IVec S_ 1 := constantI S_ 1 1#1
  let main_v3 : IVec S_ 1 := (fun x v => Host.reduce IntOp.andi x v reducesTo_S64x128x1024_S_d0_1_2 h_S_) main_v2 main_c
  let main_v4 : FVec F S256x128x5 .f32 := Host.absf main_arg1
  let main_cst_0 : FVec F S_ .f32 := constant S_ .f32 0x7F800000#32
  let main_v5 : FVec F S256x128x5 .f32 := broadcastInDim S256x128x5 ![] bcast_S_S256x128x5 main_cst_0
  let main_v6 : IVec S256x128x5 1 := cmpf .olt main_v4 main_v5
  let main_c_1 : IVec S_ 1 := constantI S_ 1 1#1
  let main_v7 : IVec S_ 1 := (fun x v => Host.reduce IntOp.andi x v reducesTo_S256x128x5_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S64x128x1024 : Shape := ⟨3, ![64, 128, 1024]⟩
abbrev S256x128x5 : Shape := ⟨3, ![256, 128, 5]⟩
abbrev S256 : Shape := ⟨1, ![256]⟩
abbrev S256x5x128 : Shape := ⟨3, ![256, 5, 128]⟩
abbrev S256x640 : Shape := ⟨2, ![256, 640]⟩
abbrev S64x256x1024 : Shape := ⟨3, ![64, 256, 1024]⟩
abbrev S64x2x256 : Shape := ⟨3, ![64, 2, 256]⟩
abbrev S1x128x1024 : Shape := ⟨3, ![1, 128, 1024]⟩
abbrev S1x256x1024 : Shape := ⟨3, ![1, 256, 1024]⟩
abbrev S1x2x256 : Shape := ⟨3, ![1, 2, 256]⟩
abbrev S128x1024 : Shape := ⟨2, ![128, 1024]⟩
abbrev S128x2 : Shape := ⟨2, ![128, 2]⟩
abbrev S128x1028 : Shape := ⟨2, ![128, 1028]⟩
abbrev S640x1024 : Shape := ⟨2, ![640, 1024]⟩
abbrev S256x1024 : Shape := ⟨2, ![256, 1024]⟩
abbrev S1x256 : Shape := ⟨2, ![1, 256]⟩
abbrev S2x256 : Shape := ⟨2, ![2, 256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S64x128x1024, .f32⟩
  | .hbm, ⟨1, _⟩ => ⟨S256x128x5, .f32⟩
  | .hbm, ⟨2, _⟩ => ⟨S256, .f32⟩
  | .hbm, ⟨3, _⟩ => ⟨S256, .f32⟩
  | .hbm, ⟨4, _⟩ => ⟨S256x5x128, .f32⟩
  | .hbm, ⟨5, _⟩ => ⟨S256x640, .f32⟩
  | .hbm, ⟨6, _⟩ => ⟨S256x640, .bf16⟩
  | .hbm, ⟨7, _⟩ => ⟨S64x256x1024, .bf16⟩
  | .hbm, ⟨8, _⟩ => ⟨S64x2x256, .f32⟩
  | .hbm, ⟨9, _⟩ => ⟨S1x256, .f32⟩
  | .hbm, ⟨10, _⟩ => ⟨S1x256, .f32⟩
  | .hbm, ⟨11, _⟩ => ⟨S64x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S256x640, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x2x256, .f32⟩
  | .local _ .vmem, ⟨6, _⟩ => ⟨S1x2x256, .f32⟩
  | .local _ .vmem, ⟨7, _⟩ => ⟨S1x256x1024, .bf16⟩
  | .local _ .vmem, ⟨8, _⟩ => ⟨S1x256x1024, .bf16⟩
  | .local _ .vmem, ⟨9, _⟩ => ⟨S64x2x256, .f32⟩
  | .local _ .vmem, ⟨10, _⟩ => ⟨S1x256, .f32⟩
  | .local _ .vmem, ⟨11, _⟩ => ⟨S1x256, .f32⟩
  | .local _ .vmem, ⟨12, _⟩ => ⟨S1x256x1024, .f32⟩
  | .local _ .vmem, ⟨13, _⟩ => ⟨S1x256x1024, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S256x128x5_S256x5x128_0_2_1 : S256x128x5.Transposes [0, 2, 1] S256x5x128
  shapeCasts_S256x5x128_S256x640 : S256x5x128.ShapeCasts S256x640
  bitsLt_bf16_f32 : FTy.bits .bf16 < FTy.bits .f32
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  concatenates_S128x2_S128x1024_S128x2_S128x1028_d1 : Shape.Concatenates [S128x2, S128x1024, S128x2] S128x1028 1
  slices_S128x1028_o0_0_S128x1024 : S128x1028.Slices ![0, 0] S128x1024
  slices_S128x1028_o0_1_S128x1024 : S128x1028.Slices ![0, 1] S128x1024
  slices_S128x1028_o0_2_S128x1024 : S128x1028.Slices ![0, 2] S128x1024
  slices_S128x1028_o0_3_S128x1024 : S128x1028.Slices ![0, 3] S128x1024
  slices_S128x1028_o0_4_S128x1024 : S128x1028.Slices ![0, 4] S128x1024
  concatenates_S128x1024_S128x1024_S128x1024_S128x1024_S128x1024_S640x1024_d0 : Shape.Concatenates [S128x1024, S128x1024, S128x1024, S128x1024, S128x1024] S640x1024 0
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  reduces_S256x1024_S256 : S256x1024.Reduces [1] S256
  shapeCasts_S256_S1x256 : S256.ShapeCasts S1x256
  concatenates_S1x256_S1x256_S2x256_d0 : Shape.Concatenates [S1x256, S1x256] S2x256 0
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  shapeCasts_S2x256_S1x2x256 : S2x256.ShapeCasts S1x2x256
  inb_S64x2x256_S64x2x256_0_0_0 : ∀ a, (![0, 0, 0] : Fin 3 → Nat) a + S64x2x256.size a ≤ S64x2x256.size a
  h_S64x2x256 : 0 < S64x2x256.numel
  shapeCasts_S64x2x256_S64x2x256 : S64x2x256.ShapeCasts S64x2x256
  reduces_S64x2x256_S2x256 : S64x2x256.Reduces [0] S2x256
  slices_S2x256_o0_0_S1x256 : S2x256.Slices ![0, 0] S1x256
  shapeCasts_S1x256_S256 : S1x256.ShapeCasts S256
  slices_S2x256_o1_0_S1x256 : S2x256.Slices ![1, 0] S1x256
  inb_S1x256_S1x256_0_0 : ∀ a, (![0, 0] : Fin 2 → Nat) a + S1x256.size a ≤ S1x256.size a
  h_S1x256 : 0 < S1x256.numel
  shapeCasts_S256_S256x1 : S256.ShapeCasts S256x1
  broadcasts_S256x1_S256x1024 : S256x1.Broadcasts S256x1024
  dot_S256x640_S640x1024_S256x1024_1_0_0_1_n_n_wf : DotDims.WF S256x640 S640x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x128x1024.size a
  hwx0_0 : ∀ i : grid0.Coords, EltTy.bits .f32 = 32 ∨ (Rect.block (s := S64x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x640.size a ≤ S256x640.size a
  hwx0_1 : ∀ i : grid0.Coords, EltTy.bits .bf16 = 32 ∨ (Rect.block (s := S256x640) S256x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S64x256x1024.size a
  hwx0_2 : ∀ i : grid0.Coords, EltTy.bits .bf16 = 32 ∨ (Rect.block (s := S64x256x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256.size a ≤ S64x2x256.size a
  hwx0_3 : ∀ i : grid0.Coords, EltTy.bits .f32 = 32 ∨ (Rect.block (s := S64x2x256) S1x2x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S64x256x1024.size a
  hwx1_0 : ∀ i : grid1.Coords, EltTy.bits .bf16 = 32 ∨ (Rect.block (s := S64x256x1024) S1x256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2x256.size a ≤ S64x2x256.size a
  hwx1_1 : ∀ i : grid1.Coords, EltTy.bits .f32 = 32 ∨ (Rect.block (s := S64x2x256) S64x2x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S64x256x1024.size a
  hwx1_4 : ∀ i : grid1.Coords, EltTy.bits .f32 = 32 ∨ (Rect.block (s := S64x256x1024) S1x256x1024.size (cc1_transform_4 i) (hinb1_4 i)).WholeWords (EltTy.packing .f32)

variable [Facts₀]

def dot_S256x640_S640x1024_S256x1024_1_0_0_1_n_n : DotDims S256x640 S640x1024 S256x1024 where
  lhsContracting := [1]
  rhsContracting := [0]
  lhsNonContracting := [0]
  rhsNonContracting := [1]
  lhsBatch := []
  rhsBatch := []
  wf := dot_S256x640_S640x1024_S256x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S64x2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x128x1024 : Shape := ⟨3, ![64, 128, 1024]⟩
abbrev S256x128x5 : Shape := ⟨3, ![256, 128, 5]⟩
abbrev S256 : Shape := ⟨1, ![256]⟩
abbrev S_ : Shape := ⟨0, ![]⟩
abbrev S64x128x1028 : Shape := ⟨3, ![64, 128, 1028]⟩
abbrev S256x5x128 : Shape := ⟨3, ![256, 5, 128]⟩
abbrev S256x640 : Shape := ⟨2, ![256, 640]⟩
abbrev S64x256x1024 : Shape := ⟨3, ![64, 256, 1024]⟩
abbrev S64x2x256x2 : Shape := ⟨4, ![64, 2, 256, 2]⟩
abbrev S1x128x1028 : Shape := ⟨3, ![1, 128, 1028]⟩
abbrev S1x256x512 : Shape := ⟨3, ![1, 256, 512]⟩
abbrev S1x1x256x2 : Shape := ⟨4, ![1, 1, 256, 2]⟩
abbrev S1x128x516 : Shape := ⟨3, ![1, 128, 516]⟩
abbrev S128x516 : Shape := ⟨2, ![128, 516]⟩
abbrev S128x512 : Shape := ⟨2, ![128, 512]⟩
abbrev S640x512 : Shape := ⟨2, ![640, 512]⟩
abbrev S256x512 : Shape := ⟨2, ![256, 512]⟩
abbrev S256x1 : Shape := ⟨2, ![256, 1]⟩
abbrev S256x2 : Shape := ⟨2, ![256, 2]⟩

abbrev nBuf : Space → Nat
  | .hbm => 36
  | .vmem => 13
  | .smem => 0
  | _ => 0

abbrev bufTy : (tb : Table) → Fin (tcTables nBuf tb) → BufTy
  | .hbm, ⟨0, _⟩ => ⟨S64x128x1024, .f32⟩
  | .hbm, ⟨1, _⟩ => ⟨S256x128x5, .f32⟩
  | .hbm, ⟨2, _⟩ => ⟨S256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S64x128x1028, .f32⟩
  | .hbm, ⟨7, _⟩ => ⟨S256x5x128, .f32⟩
  | .hbm, ⟨8, _⟩ => ⟨S256x640, .f32⟩
  | .hbm, ⟨9, _⟩ => ⟨S64x256x1024, .f32⟩
  | .hbm, ⟨10, _⟩ => ⟨S64x2x256x2, .f32⟩
  | .hbm, ⟨11, _⟩ => ⟨S_, .f32⟩
  | .hbm, ⟨12, _⟩ => ⟨S256x2, .f32⟩
  | .hbm, ⟨13, _⟩ => ⟨S256x1, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256x1, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256x1, .f32⟩
  | .hbm, ⟨35, _⟩ => ⟨S64x256x1024, .f32⟩
  | .local _ .vmem, ⟨0, _⟩ => ⟨S1x128x1028, .f32⟩
  | .local _ .vmem, ⟨1, _⟩ => ⟨S1x128x1028, .f32⟩
  | .local _ .vmem, ⟨2, _⟩ => ⟨S256x640, .f32⟩
  | .local _ .vmem, ⟨3, _⟩ => ⟨S1x256x512, .f32⟩
  | .local _ .vmem, ⟨4, _⟩ => ⟨S1x256x512, .f32⟩
  | .local _ .vmem, ⟨5, _⟩ => ⟨S1x1x256x2, .f32⟩
  | .local _ .vmem, ⟨6, _⟩ => ⟨S1x1x256x2, .f32⟩
  | .local _ .vmem, ⟨7, _⟩ => ⟨S1x256x512, .f32⟩
  | .local _ .vmem, ⟨8, _⟩ => ⟨S1x256x512, .f32⟩
  | .local _ .vmem, ⟨9, _⟩ => ⟨S256x1, .f32⟩
  | .local _ .vmem, ⟨10, _⟩ => ⟨S256x1, .f32⟩
  | .local _ .vmem, ⟨11, _⟩ => ⟨S1x256x512, .f32⟩
  | .local _ .vmem, ⟨12, _⟩ => ⟨S1x256x512, .f32⟩
  | _, _ => ⟨S64x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0 : Index := 0#32
  let c0_0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  ![0, 0, v2.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S64x128x1024_S64x128x1028_000_000_220 : S64x128x1024.Pads (![0, 0, 2] : Fin 3 → Nat) ![0, 0, 2] ![0, 0, 0] S64x128x1028
  h_S_ : 0 < S_.numel
  transposes_S256x128x5_S256x5x128_0_2_1 : S256x128x5.Transposes [0, 2, 1] S256x5x128
  shapeCasts_S256x5x128_S256x640 : S256x5x128.ShapeCasts S256x640
  h_S1x128x516 : 0 < S1x128x516.numel
  shapeCasts_S1x128x516_S128x516 : S1x128x516.ShapeCasts S128x516
  slices_S128x516_o0_0_S128x512 : S128x516.Slices ![0, 0] S128x512
  slices_S128x516_o0_1_S128x512 : S128x516.Slices ![0, 1] S128x512
  slices_S128x516_o0_2_S128x512 : S128x516.Slices ![0, 2] S128x512
  slices_S128x516_o0_3_S128x512 : S128x516.Slices ![0, 3] S128x512
  slices_S128x516_o0_4_S128x512 : S128x516.Slices ![0, 4] S128x512
  concatenates_S128x512_S128x512_S128x512_S128x512_S128x512_S640x512_d0 : Shape.Concatenates [S128x512, S128x512, S128x512, S128x512, S128x512] S640x512 0
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  reduces_S256x512_S256 : S256x512.Reduces [1] S256
  shapeCasts_S256_S256x1 : S256.ShapeCasts S256x1
  concatenates_S256x1_S256x1_S256x2_d1 : Shape.Concatenates [S256x1, S256x1] S256x2 1
  inb_S1x1x256x2_S1x1x256x2_0_0_0_0 : ∀ a, (![0, 0, 0, 0] : Fin 4 → Nat) a + S1x1x256x2.size a ≤ S1x1x256x2.size a
  h_S1x1x256x2 : 0 < S1x1x256x2.numel
  shapeCasts_S1x1x256x2_S256x2 : S1x1x256x2.ShapeCasts S256x2
  shapeCasts_S256x2_S1x1x256x2 : S256x2.ShapeCasts S1x1x256x2
  reducesTo_S64x2x256x2_S256x2_d0_1 : S64x2x256x2.ReducesTo [0, 1] S256x2
  slices_S256x2_S256x1_0_0 : S256x2.Slices ![0, 0] S256x1
  shapeCasts_S256x1_S256 : S256x1.ShapeCasts S256
  bcast_S_S256 : S_.BroadcastsInDim S256 (![] : Fin 0 → Fin S256.rank)
  slices_S256x2_S256x1_0_1 : S256x2.Slices ![0, 1] S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x512 : S256x1.Broadcasts S256x512
  dot_S256x640_S640x512_S256x512_1_0_0_1_n_n_wf : DotDims.WF S256x640 S640x512 S256x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x128x516.size a ≤ S1x128x1028.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1028.size a ≤ S64x128x1028.size a
  hwx0_0 : ∀ i : grid0.Coords, EltTy.bits .f32 = 32 ∨ (Rect.block (s := S64x128x1028) S1x128x1028.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x640.size a ≤ S256x640.size a
  hwx0_1 : ∀ i : grid0.Coords, EltTy.bits .f32 = 32 ∨ (Rect.block (s := S256x640) S256x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S64x256x1024.size a
  hwx0_2 : ∀ i : grid0.Coords, EltTy.bits .f32 = 32 ∨ (Rect.block (s := S64x256x1024) S1x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2.size a ≤ S64x2x256x2.size a
  hwx0_3 : ∀ i : grid0.Coords, EltTy.bits .f32 = 32 ∨ (Rect.block (s := S64x2x256x2) S1x1x256x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S64x256x1024.size a
  hwx1_0 : ∀ i : grid1.Coords, EltTy.bits .f32 = 32 ∨ (Rect.block (s := S64x256x1024) S1x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x512.size a ≤ S64x256x1024.size a
  hwx1_3 : ∀ i : grid1.Coords, EltTy.bits .f32 = 32 ∨ (Rect.block (s := S64x256x1024) S1x256x512.size (cc1_transform_3 i) (hinb1_3 i)).WholeWords (EltTy.packing .f32)

variable [Facts₀]

def dot_S256x640_S640x512_S256x512_1_0_0_1_n_n : DotDims S256x640 S640x512 S256x512 where
  lhsContracting := [1]
  rhsContracting := [0]
  lhsNonContracting := [0]
  rhsNonContracting := [1]
  lhsBatch := []
  rhsBatch := []
  wf := dot_S256x640_S640x512_S256x512_1_0_0_1_n_n_wf

abbrev win0_0 : Pipeline.Window sig grid0 :=
  Pipeline.Window.ofSpec (Memref.whole main_v0) S1x128x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x256x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3_0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The mathematics both programs compute, over the extended reals, with no program in sight.

  A batch of 64 rows of 128 input channels and 1024 positions is padded with two zeros at each end
  (`xpad`), convolved with 5 taps into 256 output channels and clamped at zero (`act`): the taps are
  folded k-major into one 256 × 640 matrix (`wmat`: column `k * 128 + ci` holds tap `k` of input
  channel `ci`), so that the convolution at position `t` is ONE contraction over `j : Fin 640` of
  `W o j * P b (j % 128) (t + j / 128)`. Per output channel the first two moments of the clamped
  values over all 64 × 1024 positions (`moment`) give the mean, the biased variance and the reciprocal
  standard deviation (`mean`, `rstd`); the result is the clamped value times `g * rstd` plus
  `β - mean * (g * rstd)` (`bnK`), or the same with the product `mean * g * rstd` associated the other
  way (`bnR`): multiplication of extended reals is associative, so the two agree (`bnR_eq_bnK`).
-/
import Idealize.ShloMosaic.PureOps.Ideal
import Idealize.ShloMosaic.Lib.ValueIdx

noncomputable section

namespace Cert.ConvBn

open Idealize.ShloMosaic Idealize.ShloMosaic.ValueIdx

/-! ## Shapes and currying -/

abbrev SX : Shape := ⟨3, ![64, 128, 1024]⟩
abbrev SXP : Shape := ⟨3, ![64, 128, 1028]⟩
abbrev SW : Shape := ⟨3, ![256, 128, 5]⟩
abbrev SWM : Shape := ⟨2, ![256, 640]⟩
abbrev SC : Shape := ⟨1, ![256]⟩
abbrev SO : Shape := ⟨3, ![64, 256, 1024]⟩

/-- An array of rank 1, 2, 3 read through its coordinates. -/
def cur1 {α : Type} {n0 : Nat} (a : (⟨1, ![n0]⟩ : Shape).Idx → α) : Fin n0 → α := fun p => a (ix1 p)
def cur2 {α : Type} {n0 n1 : Nat} (a : (⟨2, ![n0, n1]⟩ : Shape).Idx → α) : Fin n0 → Fin n1 → α := fun p q => a (ix2 p q)
def cur3 {α : Type} {n0 n1 n2 : Nat} (a : (⟨3, ![n0, n1, n2]⟩ : Shape).Idx → α) : Fin n0 → Fin n1 → Fin n2 → α :=
  fun p q r => a (ix3 p q r)

/-! ## The convolution -/

/-- Input channel of column `j` of the folded weight matrix. -/
def tapRow (j : Fin 640) : Fin 128 := ⟨j.val % 128, Nat.mod_lt _ (by norm_num)⟩
/-- Tap (position offset) of column `j` of the folded weight matrix. -/
def tapOff (j : Fin 640) : ℕ := j.val / 128

theorem tapOff_lt (j : Fin 640) : tapOff j < 5 := by have := j.isLt; unfold tapOff; omega

/-- A row of the input padded by two zeros on each side, at padded position `s` (any natural number:
    zero outside `2 ≤ s < 1026`). -/
def xpad (x : Fin 64 → Fin 128 → Fin 1024 → EReal) (b : Fin 64) (ci : Fin 128) (s : ℕ) : EReal :=
  if h : 2 ≤ s ∧ s < 1026 then x b ci ⟨s - 2, by omega⟩ else 0

/-- A materialized padded array read at a natural position (zero past its end). -/
def ofPadded (xp : Fin 64 → Fin 128 → Fin 1028 → EReal) (b : Fin 64) (ci : Fin 128) (s : ℕ) : EReal :=
  if h : s < 1028 then xp b ci ⟨s, h⟩ else 0

/-- The taps folded k-major: column `k * 128 + ci` is tap `k` of input channel `ci`. -/
def wmat (w : Fin 256 → Fin 128 → Fin 5 → EReal) (o : Fin 256) (j : Fin 640) : EReal :=
  w o (tapRow j) ⟨tapOff j, tapOff_lt j⟩

/-- Convolution of the padded rows `P` with the folded taps `W` at batch row `b`, output channel `o`,
    position `t`, clamped at zero. -/
def act (P : Fin 64 → Fin 128 → ℕ → EReal) (W : Fin 256 → Fin 640 → EReal) (b : Fin 64) (o : Fin 256) (t : ℕ) : EReal :=
  max (∑ j : Fin 640, W o j * P b (tapRow j) (t + tapOff j)) 0

/-! ## The statistics and the normalization -/

/-- The value itself (`q = 0`) or its square (otherwise). -/
def pw (q : ℕ) (a : EReal) : EReal := if q = 0 then a else a * a

/-- The `q`-th moment's numerator of channel `o`: the sum over all batch rows and positions. -/
def moment (A : Fin 64 → Fin 256 → ℕ → EReal) (q : ℕ) (o : Fin 256) : EReal :=
  ∑ b : Fin 64, ∑ t : Fin 1024, pw q (A b o t.val)

/-- The number of positions per channel, 64 · 1024, and the variance offset, as the programs spell them. -/
def cnt : EReal := Ideal.ofBits .f32 0x47800000#32
def eps : EReal := Ideal.ofBits .f32 0x3727C5AC#32

def mean (S1 : EReal) : EReal := Ideal.div S1 cnt
def rstd (S1 S2 : EReal) : EReal := Ideal.rsqrt (Ideal.div S2 cnt - mean S1 * mean S1 + eps)

/-- Scale and shift folded as `g * rstd` and `β - mean * (g * rstd)`. -/
def bnK (S1 S2 g β a : EReal) : EReal := a * (g * rstd S1 S2) + (β - mean S1 * (g * rstd S1 S2))
/-- The same with the shift's product associated as `(mean * g) * rstd`. -/
def bnR (S1 S2 g β a : EReal) : EReal := a * (g * rstd S1 S2) + (β - mean S1 * g * rstd S1 S2)

theorem bnR_eq_bnK (S1 S2 g β a : EReal) : bnR S1 S2 g β a = bnK S1 S2 g β a := by
  unfold bnR bnK; rw [mul_assoc]

/-! ## The result -/

/-- The whole computation at one output index. -/
def out (x : Fin 64 → Fin 128 → Fin 1024 → EReal) (w : Fin 256 → Fin 128 → Fin 5 → EReal) (g β : Fin 256 → EReal)
    (b : Fin 64) (o : Fin 256) (t : Fin 1024) : EReal :=
  bnK (moment (act (xpad x) (wmat w)) 0 o) (moment (act (xpad x) (wmat w)) 1 o) (g o) (β o)
    (act (xpad x) (wmat w) b o t.val)

/-- The result array as one function of the four argument arrays. -/
def outArr (x : SX.Idx → EReal) (w : SW.Idx → EReal) (g β : SC.Idx → EReal) : SO.Idx → EReal :=
  fun i => out (cur3 x) (cur3 w) (cur1 g) (cur1 β) (i 0) (i 1) (i 2)

end Cert.ConvBn

end
-- ==== Proof.LibJoinAxis.lean ====
/-
  A join of equally sized arrays along one axis of a matrix, read at an entry.

  When N matrices of one shape are laid end to end along the columns (each K columns wide), column l of the
  joined matrix is column l % K of piece l / K, on the same row; laid end to end along the rows (each K rows
  tall), row l of the joined matrix is row l % K of piece l / K, on the same column. The pieces are given as a
  family indexed by their position; a literal list of N pieces of one shape is the list of that family.
-/
import Idealize.ShloMosaic.Lib.ValueIdx
import Idealize.ShloMosaic.Lib.Pipeline.Value

namespace Cert.LibJoinAxis

open Idealize.ShloMosaic Idealize.ShloMosaic.ValueIdx

/-- `N` matrices of `A` rows and `K` columns joined along the columns into `W` columns, read at row `p` and
    column `l`: piece `n = l / K` at row `p` and column `c = l % K`. -/
theorem joinCols_apply {α : Type} {A K N W : Nat} (f : Fin N → (⟨2, ![A, K]⟩ : Shape).Idx → α)
    (h : Shape.Concatenates
      ((List.ofFn fun n : Fin N => (⟨⟨2, ![A, K]⟩, f n⟩ : (s : Shape) × (s.Idx → α))).map (·.1)) ⟨2, ![A, W]⟩ 1)
    (p : Fin A) (l : Fin W) (n : Fin N) (hn : l.val / K = n.val) (c : Fin K) (hc : c.val = l.val % K) :
    concatenate ⟨2, ![A, W]⟩ 1 (List.ofFn fun n : Fin N => (⟨⟨2, ![A, K]⟩, f n⟩ : (s : Shape) × (s.Idx → α))) h (ix2 p l)
      = f n (ix2 p c) :=
  concatenate_ofFn_apply (t := ⟨2, ![A, W]⟩) (s₁ := ⟨2, ![A, K]⟩) (1 : Fin 2) f h rfl K rfl (ix2 p l) n hn (ix2 p c) hc
    (fun b hb => by
      match b with
      | ⟨0, _⟩ => rfl
      | ⟨1, _⟩ => exact absurd rfl hb)

/-- `N` matrices of `K` rows and `B` columns joined along the rows into `H` rows, read at row `l` and column
    `q`: piece `n = l / K` at row `r = l % K` and column `q`. -/
theorem joinRows_apply {α : Type} {B K N H : Nat} (f : Fin N → (⟨2, ![K, B]⟩ : Shape).Idx → α)
    (h : Shape.Concatenates
      ((List.ofFn fun n : Fin N => (⟨⟨2, ![K, B]⟩, f n⟩ : (s : Shape) × (s.Idx → α))).map (·.1)) ⟨2, ![H, B]⟩ 0)
    (l : Fin H) (q : Fin B) (n : Fin N) (hn : l.val / K = n.val) (r : Fin K) (hr : r.val = l.val % K) :
    concatenate ⟨2, ![H, B]⟩ 0 (List.ofFn fun n : Fin N => (⟨⟨2, ![K, B]⟩, f n⟩ : (s : Shape) × (s.Idx → α))) h (ix2 l q)
      = f n (ix2 r q) :=
  concatenate_ofFn_apply (t := ⟨2, ![H, B]⟩) (s₁ := ⟨2, ![K, B]⟩) (0 : Fin 2) f h rfl K rfl (ix2 l q) n hn (ix2 r q) hr
    (fun b hb => by
      match b with
      | ⟨0, _⟩ => exact absurd rfl hb
      | ⟨1, _⟩ => rfl)

end Cert.LibJoinAxis
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.KerConv.Pay.lean ====
/-
  The arithmetic of the first launch's body, read entry by entry over the extended reals: the x block padded with two
  zero columns on each side, its five column windows stacked into the [640,1024] matrix whose row k * 128 + ci, column s is
  the padded row ci at s + k, the product with the [256,640] weights clamped at zero (the specification's `act`), the block
  stored as the intermediate and the two lane sums stored as the statistics.
-/
import proofs.«172093_g2000201346594626_pallaspilot1_190_11_alg».proof.Proof.Gen.KernelIdeal.Skeleton
import proofs.«172093_g2000201346594626_pallaspilot1_190_11_alg».proof.Proof.Spec
import proofs.«172093_g2000201346594626_pallaspilot1_190_11_alg».proof.Proof.LibJoinAxis
import proofs.«172093_g2000201346594626_pallaspilot1_190_11_alg».proof.Proof.LibRowSumZero
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ConvValue
open Idealize.ShloMosaic Idealize.ShloMosaic.ValueIdx Idealize.SL.Sem
open Cert.KernelIdeal Cert.KernelIdeal.Gen Cert.ConvBn

/-- The bf16 zero word denotes the extended real 0. -/
theorem ofBits_zero_bf16 : Ideal.ofBits .bf16 0x0000#16 = 0 := by simp [Ideal.ofBits, Ideal.ieee]

/-- A [128,1024] array padded with two zero columns on each side, read at row ci and padded column n. -/
theorem pad_apply (v : FVec Ideal S128x1024 .bf16) (ci : Fin 128) (n : Fin 1028) :
    concatenate S128x1028 1 [⟨S128x2, broadcast S128x2 (Scalar.ofBits (F := Ideal) .bf16 0x0000#16)⟩, ⟨S128x1024, v⟩, ⟨S128x2, broadcast S128x2 (Scalar.ofBits (F := Ideal) .bf16 0x0000#16)⟩]
        concatenates_S128x2_S128x1024_S128x2_S128x1028_d1 (ix2 ci n)
      = if h : 2 ≤ n.val ∧ n.val < 1026 then v (ix2 ci ⟨n.val - 2, by omega⟩) else 0 := by
  have hz : (Scalar.ofBits (F := Ideal) .bf16 0x0000#16 : EReal) = 0 := ofBits_zero_bf16
  by_cases h1 : n.val < 2
  · rw [dif_neg (by omega)]
    refine (concatenate_apply_piece (t := S128x1028) (1 : Fin 2) _ _ (ix2 ci n) 0 (by show (0 : ℕ) < 3; omega) S128x2 _ rfl rfl 0 rfl
      (ix2 ci ⟨n.val, h1⟩) ?_ ?_).trans hz
    · intro b hb
      match b with
      | ⟨0, _⟩ => rfl
      | ⟨1, _⟩ => exact absurd rfl hb
    · show 0 + n.val = n.val
      omega
  · by_cases h2 : n.val < 1026
    · rw [dif_pos ⟨by omega, h2⟩]
      refine concatenate_apply_piece (t := S128x1028) (1 : Fin 2) _ _ (ix2 ci n) 1 (by show (1 : ℕ) < 3; omega) S128x1024 v rfl rfl 2 rfl
        (ix2 ci ⟨n.val - 2, by omega⟩) ?_ ?_
      · intro b hb
        match b with
        | ⟨0, _⟩ => rfl
        | ⟨1, _⟩ => exact absurd rfl hb
      · show 2 + (n.val - 2) = n.val
        omega
    · rw [dif_neg (by omega)]
      have hn : n.val < 1028 := n.isLt
      refine (concatenate_apply_piece (t := S128x1028) (1 : Fin 2) _ _ (ix2 ci n) 2 (by show (2 : ℕ) < 3; omega) S128x2 _ rfl rfl 1026 rfl
        (ix2 ci ⟨n.val - 1026, by omega⟩) ?_ ?_).trans hz
      · intro b hb
        match b with
        | ⟨0, _⟩ => rfl
        | ⟨1, _⟩ => exact absurd rfl hb
      · show 1026 + (n.val - 1026) = n.val
        omega

/-- A window of 1024 columns of a [128,1028] array starting at column k, read at row r and column s, is the array at
    row r and column s + k. -/
theorem window_apply (v4 : FVec Ideal S128x1028 .bf16) (k : ℕ) (h : S128x1028.Slices ![0, k] S128x1024) (r : Fin 128)
    (s : Fin 1024) (m : Fin 1028) (hm : m.val = s.val + k) :
    extractStridedSlice S128x1024 ![0, k] v4 h (ix2 r s) = v4 (ix2 r m) :=
  extractStridedSlice_apply ![0, k] v4 h (ix2 r s) (ix2 r m) (fun a => match a with
    | ⟨0, _⟩ => by show r.val = 0 + r.val; omega
    | ⟨1, _⟩ => by show m.val = k + s.val; omega)

/-- The five windows at columns 0..4 of a padded [128,1028] array stacked along the rows: row j, column s of the stack is
    the padded array at row j % 128 and column s + j / 128. -/
theorem im2col_apply (v4 : FVec Ideal S128x1028 .bf16) (j : Fin 640) (s : Fin 1024) :
    concatenate S640x1024 0 [⟨S128x1024, extractStridedSlice S128x1024 ![0, 0] v4 slices_S128x1028_o0_0_S128x1024⟩, ⟨S128x1024, extractStridedSlice S128x1024 ![0, 1] v4 slices_S128x1028_o0_1_S128x1024⟩, ⟨S128x1024, extractStridedSlice S128x1024 ![0, 2] v4 slices_S128x1028_o0_2_S128x1024⟩, ⟨S128x1024, extractStridedSlice S128x1024 ![0, 3] v4 slices_S128x1028_o0_3_S128x1024⟩, ⟨S128x1024, extractStridedSlice S128x1024 ![0, 4] v4 slices_S128x1028_o0_4_S128x1024⟩]
        concatenates_S128x1024_S128x1024_S128x1024_S128x1024_S128x1024_S640x1024_d0 (ix2 j s)
      = v4 (ix2 (tapRow j) ⟨s.val + tapOff j, by have := tapOff_lt j; have := s.isLt; omega⟩) := by
  have hj : j.val < 640 := j.isLt
  let f : Fin 5 → S128x1024.Idx → EReal := fun
    | 0 => extractStridedSlice S128x1024 ![0, 0] v4 slices_S128x1028_o0_0_S128x1024
    | 1 => extractStridedSlice S128x1024 ![0, 1] v4 slices_S128x1028_o0_1_S128x1024
    | 2 => extractStridedSlice S128x1024 ![0, 2] v4 slices_S128x1028_o0_2_S128x1024
    | 3 => extractStridedSlice S128x1024 ![0, 3] v4 slices_S128x1028_o0_3_S128x1024
    | 4 => extractStridedSlice S128x1024 ![0, 4] v4 slices_S128x1028_o0_4_S128x1024
  obtain ⟨n, hn⟩ : ∃ n : Fin 5, j.val / 128 = n.val := ⟨⟨j.val / 128, by omega⟩, rfl⟩
  refine (Cert.LibJoinAxis.joinRows_apply (B := 1024) (K := 128) (N := 5) (H := 640) f concatenates_S128x1024_S128x1024_S128x1024_S128x1024_S128x1024_S640x1024_d0 j s n hn (tapRow j) rfl).trans ?_
  have e : tapOff j = n.val := hn
  match n, e with
  | ⟨0, _⟩, e => exact window_apply v4 0 _ _ s _ (by show s.val + tapOff j = s.val + 0; rw [e])
  | ⟨1, _⟩, e => exact window_apply v4 1 _ _ s _ (by show s.val + tapOff j = s.val + 1; rw [e])
  | ⟨2, _⟩, e => exact window_apply v4 2 _ _ s _ (by show s.val + tapOff j = s.val + 2; rw [e])
  | ⟨3, _⟩, e => exact window_apply v4 3 _ _ s _ (by show s.val + tapOff j = s.val + 3; rw [e])
  | ⟨4, _⟩, e => exact window_apply v4 4 _ _ s _ (by show s.val + tapOff j = s.val + 4; rw [e])

/-- The product of the [256,640] weights and the [640,1024] stack into a zero accumulator, read at (o, s): the sum over
    the 640 contracted positions. -/
theorem mm_apply (A : FVec Ideal S256x640 .bf16) (B : FVec Ideal S640x1024 .bf16) (o : Fin 256) (s : Fin 1024) :
    matmul dot_S256x640_S640x1024_S256x1024_1_0_0_1_n_n none A B (constant S256x1024 .f32 0x00000000#32) (ix2 o s)
      = ∑ j : Fin 640, A (ix2 o j) * B (ix2 j s) := by
  refine (Ideal.matmul_constant_zero_apply dot_S256x640_S640x1024_S256x1024_1_0_0_1_n_n none A B (ix2 o s)).trans ?_
  refine (Equiv.sum_comp (contrEquiv1 dot_S256x640_S640x1024_S256x1024_1_0_0_1_n_n 640 rfl rfl).symm _).symm.trans ?_
  refine Finset.sum_congr rfl fun c _ => ?_
  have c2 := contrEquiv1_symm_val dot_S256x640_S640x1024_S256x1024_1_0_0_1_n_n 640 rfl rfl c
  have l2 : (dot_S256x640_S640x1024_S256x1024_1_0_0_1_n_n).lhsIdx (ix2 o s) ((contrEquiv1 dot_S256x640_S640x1024_S256x1024_1_0_0_1_n_n 640 rfl rfl).symm c) = ix2 o c := by
    funext ax; apply Fin.ext
    match ax with
    | ⟨0, _⟩ => simp [DotDims.lhsIdx, dot_S256x640_S640x1024_S256x1024_1_0_0_1_n_n]; rfl
    | ⟨1, _⟩ => exact (DotDims.lhsIdx_val_of_single dot_S256x640_S640x1024_S256x1024_1_0_0_1_n_n (cl := 1) rfl (ix2 o s) _).trans c2
  have r2 : (dot_S256x640_S640x1024_S256x1024_1_0_0_1_n_n).rhsIdx (ix2 o s) ((contrEquiv1 dot_S256x640_S640x1024_S256x1024_1_0_0_1_n_n 640 rfl rfl).symm c) = ix2 c s := by
    funext ax; apply Fin.ext
    match ax with
    | ⟨0, _⟩ => exact (DotDims.rhsIdx_val_of_single dot_S256x640_S640x1024_S256x1024_1_0_0_1_n_n (cr := 0) rfl (ix2 o s) _).trans c2
    | ⟨1, _⟩ => simp [DotDims.rhsIdx, dot_S256x640_S640x1024_S256x1024_1_0_0_1_n_n]; rfl
  rw [l2, r2]

/-- The [1,128,1024] block viewed as [128,1024], read at (ci, p). -/
theorem cast_x_apply (v0 : Vec Ideal S1x128x1024 .f32) (ci : Fin 128) (p : Fin 1024) :
    shapeCast S128x1024 v0 shapeCasts_S1x128x1024_S128x1024 (ix2 ci p) = v0 (ix3 (0 : Fin 1) ci p) :=
  shapeCast_apply v0 _ (ix2 ci p) (ix3 (0 : Fin 1) ci p) (by
    rw [Shape.rowMajor_val_three, Shape.rowMajor_val_two]
    show (0 * 128 + ci.val) * 1024 + p.val = ci.val * 1024 + p.val
    omega)

/-- The clamped convolution the body computes, at output channel o and position s: when the x block is batch row b of x
    and the weight block is W, it is the specification's act at (b, o, s). -/
theorem pay1_apply (v0 : Vec Ideal S1x128x1024 .f32) (v11 : Vec Ideal S256x640 .bf16)
    (x : Fin 64 → Fin 128 → Fin 1024 → EReal) (W : Fin 256 → Fin 640 → EReal) (b : Fin 64)
    (hx : ∀ ci p, v0 (ix3 (0 : Fin 1) ci p) = x b ci p) (hW : ∀ o j, v11 (ix2 o j) = W o j)
    (o : Fin 256) (s : Fin 1024) :
    k0_pay1 v0 v11 (ix2 o s) = act (xpad x) W b o s.val := by
  unfold k0_pay1 act
  refine congrArg₂ max ?_ Ideal.ofBits_zero_f32
  refine (mm_apply _ _ o s).trans (Finset.sum_congr rfl fun j _ => congrArg₂ (· * ·) ?_ ?_)
  · exact (congrFun (shapeCast_self v11 _) (ix2 o j)).trans (hW o j)
  · refine (im2col_apply _ j s).trans ((pad_apply _ (tapRow j) _).trans ?_)
    unfold xpad
    by_cases hc : 2 ≤ s.val + tapOff j ∧ s.val + tapOff j < 1026
    · rw [dif_pos hc, dif_pos hc]
      exact (cast_x_apply v0 (tapRow j) _).trans (hx _ _)
    · rw [dif_neg hc, dif_neg hc]

/-- The intermediate block the body stores, read at (0, o, s): the clamped convolution at (o, s) (narrowing the format is
    the identity on extended reals). -/
theorem pay2_apply (v0 : Vec Ideal S1x128x1024 .f32) (v11 : Vec Ideal S256x640 .bf16) (z : Fin 1) (o : Fin 256)
    (s : Fin 1024) : k0_pay2 v0 v11 (ix3 z o s) = k0_pay1 v0 v11 (ix2 o s) := by
  unfold k0_pay2
  have hzv : z.val = 0 := by omega
  exact (shapeCast_apply _ shapeCasts_S256x1024_S1x256x1024 (ix3 z o s) (ix2 o s) (by
    rw [Shape.rowMajor_val_two, Shape.rowMajor_val_three]
    show o.val * 1024 + s.val = (z.val * 256 + o.val) * 1024 + s.val
    rw [hzv]; omega)).trans (truncf_apply (k0_pay1 v0 v11) bitsLt_bf16_f32 (ix2 o s))

/-- The statistics block the body stores, read at (0, q, o): the sum over the 1024 positions of the clamped convolution at
    (o, ·) for q = 0, of its square for q = 1. -/
theorem pay3_apply (v0 : Vec Ideal S1x128x1024 .f32) (v11 : Vec Ideal S256x640 .bf16) (z : Fin 1) (q : Fin 2)
    (o : Fin 256) : k0_pay3 v0 v11 (ix3 z q o) = ∑ t : Fin 1024, pw q.val (k0_pay1 v0 v11 (ix2 o t)) := by
  unfold k0_pay3
  have hzv : z.val = 0 := by omega
  refine (shapeCast_apply _ shapeCasts_S2x256_S1x2x256 (ix3 z q o) (ix2 q o) (by
    rw [Shape.rowMajor_val_two, Shape.rowMajor_val_three]
    show q.val * 256 + o.val = (z.val * 2 + q.val) * 256 + o.val
    rw [hzv]; omega)).trans ?_
  have hrow : ∀ (w : FVec Ideal S256 .f32),
      shapeCast S1x256 w shapeCasts_S256_S1x256 (ix2 (0 : Fin 1) o) = w (ix1 o) := fun w =>
    shapeCast_apply w shapeCasts_S256_S1x256 (ix2 (0 : Fin 1) o) (ix1 o) (by
      rw [Shape.rowMajor_val_one, Shape.rowMajor_val_two]
      show o.val = 0 * 256 + o.val
      omega)
  match q with
  | ⟨0, _⟩ =>
    refine (concatenate_apply_piece (t := S2x256) (0 : Fin 2) _ _ (ix2 (0 : Fin 2) o) 0 (by show (0 : ℕ) < 2; omega) S1x256 _ rfl rfl 0 rfl
      (ix2 (0 : Fin 1) o) ?_ ?_).trans ?_
    · intro b hb
      match b with
      | ⟨0, _⟩ => exact absurd rfl hb
      | ⟨1, _⟩ => rfl
    · rfl
    · refine (hrow _).trans ((addf_apply _ _ (ix1 o)).trans ?_)
      refine (congrArg₂ (· + ·) Ideal.ofBits_zero_f32 (Cert.RowSumZero.rowSum_zero_apply _ _ _ _ o)).trans ?_
      exact (zero_add _).trans (Finset.sum_congr rfl fun t _ => (if_pos rfl).symm)
  | ⟨1, _⟩ =>
    refine (concatenate_apply_piece (t := S2x256) (0 : Fin 2) _ _ (ix2 (1 : Fin 2) o) 1 (by show (1 : ℕ) < 2; omega) S1x256 _ rfl rfl 1 rfl
      (ix2 (0 : Fin 1) o) ?_ ?_).trans ?_
    · intro b hb
      match b with
      | ⟨0, _⟩ => exact absurd rfl hb
      | ⟨1, _⟩ => rfl
    · rfl
    · refine (hrow _).trans ((addf_apply _ _ (ix1 o)).trans ?_)
      refine (congrArg₂ (· + ·) Ideal.ofBits_zero_f32 (Cert.RowSumZero.rowSum_zero_apply _ _ _ _ o)).trans ?_
      exact (zero_add _).trans (Finset.sum_congr rfl fun t _ => (if_neg (by show ¬ (1 : ℕ) = 0; omega)).symm)

end Cert.KernelIdeal.ConvValue
end
-- ==== Proof.KerConv.lean ====
/-
  The first launch of the kernel read as arrays: every grid point t writes back, into the intermediate array and into the
  statistics array, block t (one batch row) of one function of the input array and the folded weights — the clamped
  convolution, and its two lane sums —, and the 64 blocks cover each array; so after the launch each array is that function.
-/
import proofs.«172093_g2000201346594626_pallaspilot1_190_11_alg».proof.Proof.Gen.KernelIdeal.Frame
import proofs.«172093_g2000201346594626_pallaspilot1_190_11_alg».proof.Proof.Spec
import proofs.«172093_g2000201346594626_pallaspilot1_190_11_alg».proof.Proof.KerConv.Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ConvValue
open Idealize.ShloMosaic Idealize.ShloMosaic.TcCoe Idealize.ShloMosaic.ValueIdx Idealize.SL.Sem
open Idealize.ShloMosaic.Pipeline (Dat)
open Cert.KernelIdeal Cert.KernelIdeal.Gen Cert.ConvBn

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the x block, the intermediate block and the statistics block of point t are
    block t along the batch axis; the weight block is the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The x block of point t, read at (0, ci, p), is x at (t, ci, p). -/
theorem xblk_apply (c : Dev nD) (t : Fin cfg0.N) (b : Fin 64) (hb : b.val = t.val) (z : Fin 1) (ci : Fin 128) (p : Fin 1024) :
    (iblk0 V c 0 t : Vec Ideal S1x128x1024 .f32) (ix3 z ci p) = (V c main_arg0 : S64x128x1024.Idx → EReal) (ix3 b ci p) := by
  obtain ⟨e0, e1, e2, -⟩ := idx_facts t
  unfold iblk0
  rw [View.read_apply]
  show (V c main_arg0 : S64x128x1024.Idx → EReal) _ = _
  congr 1
  funext a
  apply Fin.ext
  match a with
  | ⟨0, _⟩ => show win0_0.index t (0 : Fin 3) * 1 + 1 * z.val = b.val; rw [e0, hb]; omega
  | ⟨1, _⟩ => show win0_0.index t (1 : Fin 3) * 128 + 1 * ci.val = ci.val; rw [e1]; omega
  | ⟨2, _⟩ => show win0_0.index t (2 : Fin 3) * 1024 + 1 * p.val = p.val; rw [e2]; omega

/-- The weight block of any point is the whole weight array. -/
theorem wblk_apply (c : Dev nD) (t : Fin cfg0.N) (o : Fin 256) (j : Fin 640) :
    (iblk0 V c 1 t : Vec Ideal S256x640 .bf16) (ix2 o j) = (V c main_v2 : S256x640.Idx → EReal) (ix2 o j) := by
  obtain ⟨-, -, -, e0, e1, -⟩ := idx_facts t
  unfold iblk0
  rw [View.read_apply]
  show (V c main_v2 : S256x640.Idx → EReal) _ = _
  congr 1
  funext a
  apply Fin.ext
  match a with
  | ⟨0, _⟩ => show win0_1.index t (0 : Fin 2) * 256 + 1 * o.val = o.val; rw [e0]; omega
  | ⟨1, _⟩ => show win0_1.index t (1 : Fin 2) * 640 + 1 * j.val = j.val; rw [e1]; omega

/-- What the intermediate array ends holding: the clamped convolution, index by index. -/
def GY (c : Dev nD) : S64x256x1024.Idx → EReal := fun i =>
  act (xpad (cur3 (V c main_arg0 : S64x128x1024.Idx → EReal))) (cur2 (V c main_v2 : S256x640.Idx → EReal)) (i 0) (i 1) (i 2).val

/-- What point t writes back to the intermediate array is block t of that function. -/
theorem flushedY_eq (c : Dev nD) (t : Fin cfg0.N) :
    (dat0 (F := Ideal) V c).flushed 2 t = ((cfg0.win 2).blk t).view.read (Elt Ideal) (GY V c) := by
  have hN : cfg0.N = 64 := N_0
  have ht : t.val < 64 := by have := t.isLt; omega
  show (cfg0.win 2).cut (grid0.coords t) ((dat0 V c).after 2 t) = _
  rw [after0_2]
  unfold out0_2
  rw [View.canon_unit_zero hz3]
  simp only [View.ld_unit_zero (S := S1x128x1024) hz3, View.ld_unit_zero (S := S256x640) hz2]
  funext y
  obtain ⟨z, o, s, rfl⟩ : ∃ (z : Fin 1) (o : Fin 256) (s : Fin 1024), y = ix3 z o s := ⟨y 0, y 1, y 2, eq_ix3 y⟩
  obtain ⟨-, -, -, -, -, e0, e1, e2, -⟩ := idx_facts t
  have hemb : ((cfg0.win 2).blk t).view.emb (ix3 z o s) = (ix3 (⟨t.val, ht⟩ : Fin 64) o s : S64x256x1024.Idx) := by
    funext a
    apply Fin.ext
    match a with
    | ⟨0, _⟩ => show win0_2.index t (0 : Fin 3) * 1 + 1 * z.val = t.val; rw [e0]; omega
    | ⟨1, _⟩ => show win0_2.index t (1 : Fin 3) * 256 + 1 * o.val = o.val; rw [e1]; omega
    | ⟨2, _⟩ => show win0_2.index t (2 : Fin 3) * 1024 + 1 * s.val = s.val; rw [e2]; omega
  show k0_pay2 (iblk0 V c 0 t) (iblk0 V c 1 t) (ix3 z o s) = GY V c (((cfg0.win 2).blk t).view.emb (ix3 z o s))
  rw [hemb]
  exact (pay2_apply _ _ z o s).trans (pay1_apply _ _ _ _ (⟨t.val, ht⟩ : Fin 64)
    (fun ci p => xblk_apply V c t _ rfl 0 ci p) (fun o j => wblk_apply V c t o j) o s)

/-- An index of the intermediate array is in point t's block iff each coordinate is in the block's range on its axis. -/
theorem mem_blkY (t : Fin cfg0.N) (i : S64x256x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v3_0).slice (win0_2.rect t)).set ↔ _
  rw [View.set_slice_whole, Rect.mem_set_unit]
  exact Iff.rfl

/-- Every index of the intermediate array is in the block of the point its batch row names. -/
theorem coverY (i : S64x256x1024.Idx) :
    ∃ t : Fin cfg0.N, (cfg0.win 2).flush t = true ∧ i ∈ ((cfg0.win 2).blk t).view.set := by
  have hN : cfg0.N = 64 := N_0
  have h0 : (i 0).val < 64 := (i 0).isLt
  have h1 : (i 1).val < 256 := (i 1).isLt
  have h2 : (i 2).val < 1024 := (i 2).isLt
  obtain ⟨t, htv⟩ : ∃ t : Fin cfg0.N, t.val = (i 0).val := ⟨⟨(i 0).val, by omega⟩, rfl⟩
  obtain ⟨-, -, -, -, -, e0, e1, e2, -⟩ := idx_facts t
  refine ⟨t, flush0_2 t, ?_⟩
  rw [mem_blkY]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 256 ≤ (i 1).val ∧ (i 1).val < win0_2.index t (1 : Fin 3) * 256 + 256; rw [e1]; omega
  | ⟨2, _⟩ => show win0_2.index t (2 : Fin 3) * 1024 ≤ (i 2).val ∧ (i 2).val < win0_2.index t (2 : Fin 3) * 1024 + 1024; rw [e2]; omega

/-- The intermediate array after the launch. -/
theorem finalY (c : Dev nD) : (dat0 (F := Ideal) V c).arrAt 2 cfg0.N = GY V c :=
  (dat0 (F := Ideal) V c).arrAt_eq_of_cover 2 (GY V c) (fun t _ => flushedY_eq V c t) coverY

/-- What the statistics array ends holding: per batch row, the sum over the positions of the clamped convolution (row 0)
    or of its square (row 1). -/
def GS (c : Dev nD) : S64x2x256.Idx → EReal := fun i =>
  ∑ t : Fin 1024, pw (i 1).val (act (xpad (cur3 (V c main_arg0 : S64x128x1024.Idx → EReal))) (cur2 (V c main_v2 : S256x640.Idx → EReal)) (i 0) (i 2) t.val)

/-- What point t writes back to the statistics array is block t of that function. -/
theorem flushedS_eq (c : Dev nD) (t : Fin cfg0.N) :
    (dat0 (F := Ideal) V c).flushed 3 t = ((cfg0.win 3).blk t).view.read (Elt Ideal) (GS V c) := by
  have hN : cfg0.N = 64 := N_0
  have ht : t.val < 64 := by have := t.isLt; omega
  show (cfg0.win 3).cut (grid0.coords t) ((dat0 V c).after 3 t) = _
  rw [after0_3]
  unfold out0_3
  rw [View.canon_unit_zero hz3]
  simp only [View.ld_unit_zero (S := S1x128x1024) hz3, View.ld_unit_zero (S := S256x640) hz2]
  funext y
  obtain ⟨z, q, o, rfl⟩ : ∃ (z : Fin 1) (q : Fin 2) (o : Fin 256), y = ix3 z q o := ⟨y 0, y 1, y 2, eq_ix3 y⟩
  obtain ⟨-, -, -, -, -, -, -, -, e0, e1, e2⟩ := idx_facts t
  have hemb : ((cfg0.win 3).blk t).view.emb (ix3 z q o) = (ix3 (⟨t.val, ht⟩ : Fin 64) q o : S64x2x256.Idx) := by
    funext a
    apply Fin.ext
    match a with
    | ⟨0, _⟩ => show win0_3.index t (0 : Fin 3) * 1 + 1 * z.val = t.val; rw [e0]; omega
    | ⟨1, _⟩ => show win0_3.index t (1 : Fin 3) * 2 + 1 * q.val = q.val; rw [e1]; omega
    | ⟨2, _⟩ => show win0_3.index t (2 : Fin 3) * 256 + 1 * o.val = o.val; rw [e2]; omega
  show k0_pay3 (iblk0 V c 0 t) (iblk0 V c 1 t) (ix3 z q o) = GS V c (((cfg0.win 3).blk t).view.emb (ix3 z q o))
  rw [hemb]
  exact (pay3_apply _ _ z q o).trans (Finset.sum_congr rfl fun s _ => congrArg (pw q.val)
    (pay1_apply _ _ _ _ (⟨t.val, ht⟩ : Fin 64) (fun ci p => xblk_apply V c t _ rfl 0 ci p) (fun o j => wblk_apply V c t o j) o s))

/-- An index of the statistics array is in point t's block iff each coordinate is in the block's range on its axis. -/
theorem mem_blkS (t : Fin cfg0.N) (i : S64x2x256.Idx) :
    i ∈ ((cfg0.win 3).blk t).view.set ↔ ∀ a : Fin 3, win0_3.index t a * S1x2x256.size a ≤ (i a).val ∧ (i a).val < win0_3.index t a * S1x2x256.size a + S1x2x256.size a := by
  show i ∈ ((View.whole main_v3_1).slice (win0_3.rect t)).set ↔ _
  rw [View.set_slice_whole, Rect.mem_set_unit]
  exact Iff.rfl

/-- Every index of the statistics array is in the block of the point its batch row names. -/
theorem coverS (i : S64x2x256.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 2 := (i 1).isLt
  have h2 : (i 2).val < 256 := (i 2).isLt
  obtain ⟨t, htv⟩ : ∃ t : Fin cfg0.N, t.val = (i 0).val := ⟨⟨(i 0).val, by omega⟩, rfl⟩
  obtain ⟨-, -, -, -, -, -, -, -, e0, e1, e2⟩ := idx_facts t
  refine ⟨t, flush0_3 t, ?_⟩
  rw [mem_blkS]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 2 ≤ (i 1).val ∧ (i 1).val < win0_3.index t (1 : Fin 3) * 2 + 2; rw [e1]; omega
  | ⟨2, _⟩ => show win0_3.index t (2 : Fin 3) * 256 ≤ (i 2).val ∧ (i 2).val < win0_3.index t (2 : Fin 3) * 256 + 256; rw [e2]; omega

/-- The statistics array after the launch. -/
theorem finalS (c : Dev nD) : (dat0 (F := Ideal) V c).arrAt 3 cfg0.N = GS V c :=
  (dat0 (F := Ideal) V c).arrAt_eq_of_cover 3 (GS V c) (fun t _ => flushedS_eq V c t) coverS

/-- After the first launch the intermediate array holds, at (b, o, t), the clamped convolution of batch row `b`. -/
theorem y_eq (c : Dev nD) (i : S64x256x1024.Idx) :
    ((dat0 (F := Ideal) V c).arrAt 2 cfg0.N : S64x256x1024.Idx → EReal) i
      = act (xpad (cur3 (V c main_arg0 : S64x128x1024.Idx → EReal))) (cur2 (V c main_v2 : S256x640.Idx → EReal)) (i 0) (i 1) (i 2).val :=
  congrFun (finalY V c) i

/-- and the statistics array holds, at (b, q, o), the sum over the 1024 positions of the clamped values (q = 0) or of their squares (q = 1). -/
theorem stats_eq (c : Dev nD) (i : S64x2x256.Idx) :
    ((dat0 (F := Ideal) V c).arrAt 3 cfg0.N : S64x2x256.Idx → EReal) i
      = ∑ t : Fin 1024, pw (i 1).val (act (xpad (cur3 (V c main_arg0 : S64x128x1024.Idx → EReal))) (cur2 (V c main_v2 : S256x640.Idx → EReal)) (i 0) (i 2) t.val) :=
  congrFun (finalS V c) i

end Cert.KernelIdeal.ConvValue
end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.KerApply.Payload.lean ====
/-
  The second launch's arithmetic at one entry. The body sums the statistics array over its 64 rows, takes rows 0 and 1 of
  the sums as the two moments' numerators, divides by the count, forms the variance, adds the offset, takes the reciprocal
  square root, folds it with the scale into one factor and with the shift into one offset, and applies both along the
  1024 positions of each channel. At (0, o, s) that is `bnK S1 S2 g β y` with S1, S2 the two sums at channel o, g and β
  the scale and shift rows at o, and y the block's value at (0, o, s).
-/
import proofs.«172093_g2000201346594626_pallaspilot1_190_11_alg».proof.Proof.Gen.KernelIdeal.Frame
import proofs.«172093_g2000201346594626_pallaspilot1_190_11_alg».proof.Proof.Spec
import proofs.«172093_g2000201346594626_pallaspilot1_190_11_alg».proof.Proof.LibKeepdims
import proofs.«172093_g2000201346594626_pallaspilot1_190_11_alg».proof.Proof.LibRowSumZero
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.ApplyValue
open Idealize.ShloMosaic Idealize.ShloMosaic.TcCoe Idealize.ShloMosaic.ValueIdx Idealize.SL.Sem
open Cert.KernelIdeal Cert.KernelIdeal.Gen Cert.ConvBn

section Layout
variable {α : Type}

/-- The sum of a [64, 2, 256] array over its first axis, from the zero pattern, at (r, o): the sum over the 64 rows. -/
theorem sumRows_apply (src : FVec Ideal S64x2x256 .f32) (hR : S64x2x256.Reduces [0] S2x256) (hφ : FKind.Formats .f32)
    (hacc : (0x00000000#32 : BitVec 32) = 0x00000000#32) (r : Fin 2) (o : Fin 256) :
    multiReduction (F := Ideal) .add [0] S2x256 src 0x00000000#32 hR hφ hacc (ix2 r o) = ∑ b : Fin 64, src (ix3 b r o) :=
  (Ideal.multiReduction_add_single src _ hR hφ hacc (ix2 r o)).trans
    (Finset.sum_congr rfl fun k _ => congrArg src (funext fun d => by
      match d with | ⟨0, _⟩ => rfl | ⟨1, _⟩ => rfl | ⟨2, _⟩ => rfl))

/-- Row 0 of a [2, 256] array cut out as a [1, 256] array. -/
theorem slice0_apply (x : S2x256.Idx → α) (h : S2x256.Slices ![0, 0] S1x256) (o : Fin 256) :
    extractStridedSlice S1x256 ![0, 0] x h (ix2 (0 : Fin 1) o) = x (ix2 (0 : Fin 2) o) :=
  extractStridedSlice_apply ![0, 0] x h _ _ fun a => by
    match a with
    | ⟨0, _⟩ => rfl
    | ⟨1, _⟩ => show o.val = 0 + o.val; omega

/-- Row 1 of a [2, 256] array cut out as a [1, 256] array. -/
theorem slice1_apply (x : S2x256.Idx → α) (h : S2x256.Slices ![1, 0] S1x256) (o : Fin 256) :
    extractStridedSlice S1x256 ![1, 0] x h (ix2 (0 : Fin 1) o) = x (ix2 (1 : Fin 2) o) :=
  extractStridedSlice_apply ![1, 0] x h _ _ fun a => by
    match a with
    | ⟨0, _⟩ => rfl
    | ⟨1, _⟩ => show o.val = 0 + o.val; omega

/-- A [1, 256] row viewed as a [256] vector. -/
theorem rowCast_apply (x : S1x256.Idx → α) (h : S1x256.ShapeCasts S256) (o : Fin 256) :
    shapeCast S256 x h (ix1 o) = x (ix2 (0 : Fin 1) o) :=
  shapeCast_apply x h _ _ (by
    rw [Shape.rowMajor_val_two, Shape.rowMajor_val_one]
    show 0 * 256 + o.val = o.val
    omega)

/-- A [256] vector viewed as a column and repeated along 1024 positions. -/
theorem colBcast_apply (x : S256.Idx → α) (h : S256.ShapeCasts S256x1) (h' : S256x1.Broadcasts S256x1024) (o : Fin 256) (s : Fin 1024) :
    broadcastTo S256x1024 (shapeCast S256x1 x h) h' (ix2 o s) = x (ix1 o) :=
  (Cert.Keepdims.broadcastTo_a1_ab_apply _ h' o s).trans (Cert.Keepdims.shapeCast_a_a1_apply x h o 0)

/-- A [1, 256, 1024] block viewed as a [256, 1024] array. -/
theorem drop3_apply (x : S1x256x1024.Idx → α) (h : S1x256x1024.ShapeCasts S256x1024) (o : Fin 256) (s : Fin 1024) :
    shapeCast S256x1024 x h (ix2 o s) = x (ix3 (0 : Fin 1) o s) :=
  shapeCast_apply x h _ _ (by
    rw [Shape.rowMajor_val_three, Shape.rowMajor_val_two]
    show (0 * 256 + o.val) * 1024 + s.val = o.val * 1024 + s.val
    omega)

/-- A [256, 1024] array viewed as a [1, 256, 1024] block. -/
theorem add3_apply (x : S256x1024.Idx → α) (h : S256x1024.ShapeCasts S1x256x1024) (o : Fin 256) (s : Fin 1024) :
    shapeCast S1x256x1024 x h (ix3 (0 : Fin 1) o s) = x (ix2 o s) :=
  shapeCast_apply x h _ _ (by
    rw [Shape.rowMajor_val_three, Shape.rowMajor_val_two]
    show o.val * 1024 + s.val = (0 * 256 + o.val) * 1024 + s.val
    omega)

end Layout

/-- The body's result at (0, o, s): the block's value normalized with the moments summed over the 64 rows of the statistics. -/
theorem pay_apply (v0 : Vec Ideal S64x2x256 .f32) (v16 v19 : Vec Ideal S1x256 .f32) (v23 : Vec Ideal S1x256x1024 .bf16)
    (o : Fin 256) (s : Fin 1024) :
    k1_pay1 (F := Ideal) v0 v16 v19 v23 (ix3 (0 : Fin 1) o s)
      = bnK (∑ b : Fin 64, v0 (ix3 b (0 : Fin 2) o)) (∑ b : Fin 64, v0 (ix3 b (1 : Fin 2) o))
          (v16 (ix2 (0 : Fin 1) o)) (v19 (ix2 (0 : Fin 1) o)) (v23 (ix3 (0 : Fin 1) o s)) := by
  unfold k1_pay1
  simp only [add3_apply, addf_apply, mulf_apply, subf_apply, divf_apply, extf_apply, broadcast_apply,
    Cert.RowSumZero.rsqrt_apply, colBcast_apply, drop3_apply, rowCast_apply, slice0_apply, slice1_apply,
    shapeCast_self]
  have e0 : multiReduction (F := Ideal) .add [0] S2x256 v0 0x00000000#32 reduces_S64x2x256_S2x256 (.inl rfl) rfl (ix2 (0 : Fin 2) o)
      = ∑ b : Fin 64, v0 (ix3 b (0 : Fin 2) o) := sumRows_apply v0 _ _ _ 0 o
  have e1 : multiReduction (F := Ideal) .add [0] S2x256 v0 0x00000000#32 reduces_S64x2x256_S2x256 (.inl rfl) rfl (ix2 (1 : Fin 2) o)
      = ∑ b : Fin 64, v0 (ix3 b (1 : Fin 2) o) := sumRows_apply v0 _ _ _ 1 o
  rw [e0, e1]
  unfold bnK rstd mean cnt eps
  rfl

end Cert.KernelIdeal.ApplyValue
end
-- ==== Proof.KerApply.lean ====
/-
  The kernel's second launch, from blocks to the result array. Each of the 64 grid points works on one batch row: it
  reads that row of the intermediate array, the whole statistics array and the scale and shift rows, and writes the
  normalized row back. What a point writes is its block of ONE function `G` of the index (the normalization of
  `Spec`'s `bnK` with the moments summed over the statistics' 64 rows), and the 64 blocks tile the result array, so
  the array ends holding `G`.
-/
import proofs.«172093_g2000201346594626_pallaspilot1_190_11_alg».proof.Proof.Gen.KernelIdeal.Frame
import proofs.«172093_g2000201346594626_pallaspilot1_190_11_alg».proof.Proof.Spec
import proofs.«172093_g2000201346594626_pallaspilot1_190_11_alg».proof.Proof.KerApply.Payload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ApplyValue
open Idealize.ShloMosaic Idealize.ShloMosaic.TcCoe Idealize.ShloMosaic.ValueIdx Idealize.SL.Sem
open Idealize.ShloMosaic.Pipeline (Dat)
open Cert.KernelIdeal Cert.KernelIdeal.Gen Cert.ConvBn

theorem hz3 : (![0, 0, 0] : Fin 3 → Nat) = fun _ => 0 := funext fun a => by fin_cases a <;> rfl
theorem hz2 : (![0, 0] : Fin 2 → Nat) = fun _ => 0 := funext fun a => by fin_cases a <;> rfl

/-- The body's result over blocks that are restrictions of four arrays: the block of the intermediate array is batch row
    `b` of `A0`, the other three blocks are the whole arrays. -/
theorem point_eq (x0 : Vec Ideal S1x256x1024 .bf16) (x1 : Vec Ideal S64x2x256 .f32) (x2 x3 : Vec Ideal S1x256 .f32)
    (A0 : S64x256x1024.Idx → EReal) (A1 : S64x2x256.Idx → EReal) (A2 A3 : S1x256.Idx → EReal) (b : Fin 64)
    (h0 : ∀ (o : Fin 256) (s : Fin 1024), x0 (ix3 (0 : Fin 1) o s) = A0 (ix3 b o s))
    (h1 : ∀ (k : Fin 64) (r : Fin 2) (o : Fin 256), x1 (ix3 k r o) = A1 (ix3 k r o))
    (h2 : ∀ o : Fin 256, x2 (ix2 (0 : Fin 1) o) = A2 (ix2 (0 : Fin 1) o))
    (h3 : ∀ o : Fin 256, x3 (ix2 (0 : Fin 1) o) = A3 (ix2 (0 : Fin 1) o))
    (o : Fin 256) (s : Fin 1024) :
    k1_pay1 (F := Ideal) x1 x2 x3 x0 (ix3 (0 : Fin 1) o s)
      = bnK (∑ k : Fin 64, cur3 A1 k 0 o) (∑ k : Fin 64, cur3 A1 k 1 o) (cur2 A2 0 o) (cur2 A3 0 o) (A0 (ix3 b o s)) := by
  rw [pay_apply, h0, h2, h3]
  simp only [h1]
  rfl

variable (V : (c : Dev nD) → (b : Ref sig .tc) → Buf (Elt Ideal) ((c : Thread nD τ).loc b))

/-- The result array as one function of the index. -/
def G (c : Dev nD) : S64x256x1024.Idx → EReal := fun i =>
  bnK (∑ b : Fin 64, cur3 (V c main_v3_1 : S64x2x256.Idx → EReal) b 0 (i 1))
      (∑ b : Fin 64, cur3 (V c main_v3_1 : S64x2x256.Idx → EReal) b 1 (i 1))
      (cur2 (V c main_v4 : S1x256.Idx → EReal) 0 (i 1)) (cur2 (V c main_v5 : S1x256.Idx → EReal) 0 (i 1))
      ((V c main_v3_0 : S64x256x1024.Idx → EReal) i)

/-- The batch row a grid point works on. -/
abbrev row (t : Fin cfg1.N) : Fin 64 := t.cast N_1

/-- The printed index maps over the grid: the intermediate array's and the result's blocks move with the point along
    the batch axis, the other three windows stay at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The intermediate array's block at point `t` is its batch row `t`. -/
theorem iblk0_apply (c : Dev nD) (t : Fin cfg1.N) (o : Fin 256) (s : Fin 1024) :
    (iblk1 V c 0 t : Vec Ideal S1x256x1024 .bf16) (ix3 (0 : Fin 1) o s)
      = (V c main_v3_0 : S64x256x1024.Idx → EReal) (ix3 (row t) o s) := by
  obtain ⟨e0, e1, e2, -⟩ := idx_facts t
  unfold iblk1
  rw [View.read_apply]
  show (V c main_v3_0 : S64x256x1024.Idx → EReal) _ = V c main_v3_0 _
  congr 1
  funext a
  apply Fin.ext
  match a with
  | ⟨0, _⟩ => show win1_0.index t (0 : Fin 3) * 1 + 1 * 0 = t.val; omega
  | ⟨1, _⟩ => show win1_0.index t (1 : Fin 3) * 256 + 1 * o.val = o.val; omega
  | ⟨2, _⟩ => show win1_0.index t (2 : Fin 3) * 1024 + 1 * s.val = s.val; omega

/-- The statistics array's block at every point is the whole array. -/
theorem iblk1_apply (c : Dev nD) (t : Fin cfg1.N) (k : Fin 64) (r : Fin 2) (o : Fin 256) :
    (iblk1 V c 1 t : Vec Ideal S64x2x256 .f32) (ix3 k r o) = (V c main_v3_1 : S64x2x256.Idx → EReal) (ix3 k r o) := by
  obtain ⟨-, -, -, e0, e1, e2, -⟩ := idx_facts t
  unfold iblk1
  rw [View.read_apply]
  show (V c main_v3_1 : S64x2x256.Idx → EReal) _ = V c main_v3_1 _
  congr 1
  funext a
  apply Fin.ext
  match a with
  | ⟨0, _⟩ => show win1_1.index t (0 : Fin 3) * 64 + 1 * k.val = k.val; omega
  | ⟨1, _⟩ => show win1_1.index t (1 : Fin 3) * 2 + 1 * r.val = r.val; omega
  | ⟨2, _⟩ => show win1_1.index t (2 : Fin 3) * 256 + 1 * o.val = o.val; omega

/-- The scale row's block at every point is the whole row. -/
theorem iblk2_apply (c : Dev nD) (t : Fin cfg1.N) (o : Fin 256) :
    (iblk1 V c 2 t : Vec Ideal S1x256 .f32) (ix2 (0 : Fin 1) o) = (V c main_v4 : S1x256.Idx → EReal) (ix2 (0 : Fin 1) o) := by
  obtain ⟨-, -, -, -, -, -, e0, e1, -⟩ := idx_facts t
  unfold iblk1
  rw [View.read_apply]
  show (V c main_v4 : S1x256.Idx → EReal) _ = V c main_v4 _
  congr 1
  funext a
  apply Fin.ext
  match a with
  | ⟨0, _⟩ => show win1_2.index t (0 : Fin 2) * 1 + 1 * 0 = 0; omega
  | ⟨1, _⟩ => show win1_2.index t (1 : Fin 2) * 256 + 1 * o.val = o.val; omega

/-- The shift row's block at every point is the whole row. -/
theorem iblk3_apply (c : Dev nD) (t : Fin cfg1.N) (o : Fin 256) :
    (iblk1 V c 3 t : Vec Ideal S1x256 .f32) (ix2 (0 : Fin 1) o) = (V c main_v5 : S1x256.Idx → EReal) (ix2 (0 : Fin 1) o) := by
  obtain ⟨-, -, -, -, -, -, -, -, e0, e1, -⟩ := idx_facts t
  unfold iblk1
  rw [View.read_apply]
  show (V c main_v5 : S1x256.Idx → EReal) _ = V c main_v5 _
  congr 1
  funext a
  apply Fin.ext
  match a with
  | ⟨0, _⟩ => show win1_3.index t (0 : Fin 2) * 1 + 1 * 0 = 0; omega
  | ⟨1, _⟩ => show win1_3.index t (1 : Fin 2) * 256 + 1 * o.val = o.val; omega

/-- The result's block at point `t` sits at batch row `t` of the result array. -/
theorem emb4 (t : Fin cfg1.N) (o : Fin 256) (s : Fin 1024) :
    ((cfg1.win 4).blk t).view.emb (ix3 (0 : Fin 1) o s) = (ix3 (row t) o s : S64x256x1024.Idx) := by
  obtain ⟨-, -, -, -, -, -, -, -, -, -, e0, e1, e2⟩ := idx_facts t
  funext a
  apply Fin.ext
  match a with
  | ⟨0, _⟩ => show win1_4.index t (0 : Fin 3) * 1 + 1 * 0 = t.val; omega
  | ⟨1, _⟩ => show win1_4.index t (1 : Fin 3) * 256 + 1 * o.val = o.val; omega
  | ⟨2, _⟩ => show win1_4.index t (2 : Fin 3) * 1024 + 1 * s.val = s.val; omega

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz3]
  simp only [View.ld_unit_zero (S := S64x2x256) hz3, View.ld_unit_zero (S := S1x256) hz2, View.ld_unit_zero (S := S1x256x1024) hz3]
  funext j
  show k1_pay1 (F := Ideal) (iblk1 V c 1 t) (iblk1 V c 2 t) (iblk1 V c 3 t) (iblk1 V c 0 t) j = _
  obtain ⟨u, o, s, rfl⟩ : ∃ (u : Fin 1) (o : Fin 256) (s : Fin 1024), j = ix3 u o s := ⟨j 0, j 1, j 2, eq_ix3 j⟩
  obtain rfl : u = 0 := Subsingleton.elim _ _
  refine (point_eq (iblk1 V c 0 t) (iblk1 V c 1 t) (iblk1 V c 2 t) (iblk1 V c 3 t)
    (V c main_v3_0) (V c main_v3_1) (V c main_v4) (V c main_v5) (row t)
    (iblk0_apply V c t) (iblk1_apply V c t) (iblk2_apply V c t) (iblk3_apply V c t) o s).trans ?_
  rw [View.read_apply]
  show _ = G V c (((cfg1.win 4).blk t).view.emb (ix3 (0 : Fin 1) o s))
  rw [emb4]
  rfl

/-- An index of the result array lies in point `t`'s block iff each coordinate lies in the block's range on its axis. -/
theorem mem_blk (t : Fin cfg1.N) (i : S64x256x1024.Idx) :
    i ∈ ((cfg1.win 4).blk t).view.set ↔ ∀ a : Fin 3, win1_4.index t a * S1x256x1024.size a ≤ (i a).val
      ∧ (i a).val < win1_4.index t a * S1x256x1024.size a + S1x256x1024.size a := by
  show i ∈ ((View.whole main_v6).slice (win1_4.rect t)).set ↔ _
  rw [View.set_slice_whole, Rect.mem_set_unit]
  exact Iff.rfl

/-- Every index of the result array lies in the block of the point that works on its batch row. -/
theorem cover (i : S64x256x1024.Idx) :
    ∃ t : Fin cfg1.N, (cfg1.win 4).flush t = true ∧ i ∈ ((cfg1.win 4).blk t).view.set := by
  have h0 : (i 0).val < 64 := (i 0).isLt
  have h1 : (i 1).val < 256 := (i 1).isLt
  have h2 : (i 2).val < 1024 := (i 2).isLt
  obtain ⟨t, ht⟩ : ∃ t : Fin cfg1.N, t.val = (i 0).val :=
    ⟨⟨(i 0).val, by rw [show cfg1.N = 64 from N_1]; exact h0⟩, rfl⟩
  obtain ⟨-, -, -, -, -, -, -, -, -, -, e0, e1, e2⟩ := idx_facts t
  refine ⟨t, flush1_4 t, ?_⟩
  rw [mem_blk]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 256 ≤ (i 1).val ∧ (i 1).val < win1_4.index t (1 : Fin 3) * 256 + 256
    omega
  | ⟨2, _⟩ =>
    show win1_4.index t (2 : Fin 3) * 1024 ≤ (i 2).val ∧ (i 2).val < win1_4.index t (2 : Fin 3) * 1024 + 1024
    omega

/-- The result array after the launch is `G`. -/
theorem final (c : Dev nD) : (dat1 (F := Ideal) V c).arrAt 4 cfg1.N = G V c :=
  (dat1 (F := Ideal) V c).arrAt_eq_of_cover 4 (G V c) (fun t _ => flushed_eq V c t) cover

/-- After the second launch the result array holds, at (b, o, t), the intermediate value normalized with the moments summed over the batch rows of the statistics array. -/
theorem out_eq (c : Dev nD) (i : S64x256x1024.Idx) :
    ((dat1 (F := Ideal) V c).arrAt 4 cfg1.N : S64x256x1024.Idx → EReal) i
      = bnK (∑ b : Fin 64, cur3 (V c main_v3_1 : S64x2x256.Idx → EReal) b 0 (i 1))
            (∑ b : Fin 64, cur3 (V c main_v3_1 : S64x2x256.Idx → EReal) b 1 (i 1))
            (cur2 (V c main_v4 : S1x256.Idx → EReal) 0 (i 1)) (cur2 (V c main_v5 : S1x256.Idx → EReal) 0 (i 1))
            ((V c main_v3_0 : S64x256x1024.Idx → EReal) i) := by
  rw [final V c]
  rfl

end Cert.KernelIdeal.ApplyValue
end
-- ==== Proof.KerNamed.lean ====
import proofs.«172093_g2000201346594626_pallaspilot1_190_11_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, its result array ends at the contents the
    last launch's write-backs leave (the fold `W4` read at the result), and the argument arrays end as launched. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.RunValue

end
-- ==== Proof.KerHost.lean ====
/-
  What the kernel program's buffers hold at the two launches' entries, read off the fold of its host operations:
  the first launch finds the input as launched and the weights folded k-major (transpose of the tap and channel axes,
  then the two flattened: column `k * 128 + ci` is tap `k` of channel `ci`); the second finds the two arrays the first
  wrote, and the scale and offset vectors as rows of one.
-/
import proofs.«172093_g2000201346594626_pallaspilot1_190_11_alg».proof.Proof.Gen.KernelIdeal.Frame
import proofs.«172093_g2000201346594626_pallaspilot1_190_11_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section
namespace Cert.KernelIdeal.RunValue
open Idealize.ShloMosaic Idealize.ShloMosaic.TcCoe Idealize.ShloMosaic.ValueIdx Idealize.SL.Sem
open Idealize.ShloMosaic.Pipeline (Dat)
open Cert.KernelIdeal Cert.KernelIdeal.Gen Cert.ConvBn

variable (m : (ℓ : Loc nD τ sig) → Buf (Elt Ideal) ℓ) (ρ : Dev nD → PrngReg)

/-! ## The first launch's entry -/

/-- The input array is untouched by the weight folding. -/
theorem V1_arg0 (c : Dev nD) : V1 m ρ c main_arg0 = m ((c : Thread nD τ).loc main_arg0) := by
  show StableHlo.after hostOps0 (W0 m ρ c) (Proc.devRef .tc main_arg0) = _
  after_results

/-- The folded weights as the host operations' composed term. -/
theorem V1_v2 (c : Dev nD) :
    @Eq (S256x640.Idx → EReal) (V1 m ρ c main_v2)
      (truncf (F := Ideal) .bf16 (shapeCast S256x640 (transpose S256x5x128 [0, 2, 1] (m ((c : Thread nD τ).loc main_arg1) : S256x128x5.Idx → EReal)
          Facts₀.transposes_S256x128x5_S256x5x128_0_2_1) Facts₀.shapeCasts_S256x5x128_S256x640) Facts₀.bitsLt_bf16_f32) := by
  show StableHlo.after hostOps0 (W0 m ρ c) (Proc.devRef .tc main_v2) = _
  after_results
  rfl

/-- Column `j` of the folded weights is tap `j / 128` of input channel `j % 128`. -/
theorem wmat_eq (c : Dev nD) :
    cur2 (V1 m ρ c main_v2 : S256x640.Idx → EReal) = wmat (cur3 (m ((c : Thread nD τ).loc main_arg1) : S256x128x5.Idx → EReal)) := by
  funext o j
  unfold cur2 wmat cur3
  rw [V1_v2, truncf_apply]
  have hk : j.val / 128 < 5 := tapOff_lt j
  refine (shapeCast_apply _ _ (ix2 o j) (ix3 o ⟨j.val / 128, hk⟩ (tapRow j)) ?_).trans ?_
  · rw [Shape.rowMajor_val_three, Shape.rowMajor_val_two]
    show (o.val * 5 + j.val / 128) * 128 + j.val % 128 = o.val * 640 + j.val
    omega
  · exact transpose_ix3_021_apply _ _ o ⟨j.val / 128, hk⟩ (tapRow j)

/-! ## The second launch's entry -/

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

/-- The scale vector as a one-row matrix. -/
theorem V3_v4 (c : Dev nD) :
    @Eq (S1x256.Idx → EReal) (V3 m ρ c main_v4) (shapeCast S1x256 (m ((c : Thread nD τ).loc main_arg2) : S256.Idx → EReal) Facts₀.shapeCasts_S256_S1x256) := by
  show StableHlo.after hostOps1 (W2 m ρ c) (Proc.devRef .tc main_v4) = _
  after_results
  rw [W2_arg2]
  rfl

/-- The offset vector as a one-row matrix. -/
theorem V3_v5 (c : Dev nD) :
    @Eq (S1x256.Idx → EReal) (V3 m ρ c main_v5) (shapeCast S1x256 (m ((c : Thread nD τ).loc main_arg3) : S256.Idx → EReal) Facts₀.shapeCasts_S256_S1x256) := by
  show StableHlo.after hostOps1 (W2 m ρ c) (Proc.devRef .tc main_v5) = _
  after_results
  rw [W2_arg3]
  rfl

theorem gamma_eq (c : Dev nD) (o : Fin 256) :
    cur2 (V3 m ρ c main_v4 : S1x256.Idx → EReal) 0 o = cur1 (m ((c : Thread nD τ).loc main_arg2) : S256.Idx → EReal) o := by
  unfold cur2 cur1
  rw [V3_v4]
  exact shapeCast_a_1a_apply _ _ 0 o

theorem beta_eq (c : Dev nD) (o : Fin 256) :
    cur2 (V3 m ρ c main_v5 : S1x256.Idx → EReal) 0 o = cur1 (m ((c : Thread nD τ).loc main_arg3) : S256.Idx → EReal) o := by
  unfold cur2 cur1
  rw [V3_v5]
  exact shapeCast_a_1a_apply _ _ 0 o

/-- The intermediate array is what the first launch's write-backs left. -/
theorem V3_y (c : Dev nD) :
    @Eq (S64x256x1024.Idx → EReal) (V3 m ρ c main_v3_0) ((dat0 (F := Ideal) (V1 m ρ) c).arrAt 2 cfg0.N) := by
  show StableHlo.after hostOps1 (W2 m ρ c) (Proc.devRef .tc main_v3_0) = _
  after_results
  exact W2_arr m ρ c 2

/-- The statistics array is what the first launch's write-backs left. -/
theorem V3_stats (c : Dev nD) :
    @Eq (S64x2x256.Idx → EReal) (V3 m ρ c main_v3_1) ((dat0 (F := Ideal) (V1 m ρ) c).arrAt 3 cfg0.N) := by
  show StableHlo.after hostOps1 (W2 m ρ c) (Proc.devRef .tc main_v3_1) = _
  after_results
  exact W2_arr m ρ c 3

end Cert.KernelIdeal.RunValue
end
-- ==== Proof.KerRun.lean ====
/-
  The kernel program's result as ONE function of its four argument arrays: the second launch normalizes the
  intermediate array with the moments summed over the batch rows of the statistics array; the first launch wrote the
  clamped convolution into the one and its row sums and row sums of squares into the other; the weights it read are the
  taps folded k-major. Index by index this is `Cert.ConvBn.outArr`.
-/
import proofs.«172093_g2000201346594626_pallaspilot1_190_11_alg».proof.Proof.Spec
import proofs.«172093_g2000201346594626_pallaspilot1_190_11_alg».proof.Proof.KerConv
import proofs.«172093_g2000201346594626_pallaspilot1_190_11_alg».proof.Proof.KerApply
import proofs.«172093_g2000201346594626_pallaspilot1_190_11_alg».proof.Proof.KerNamed
import proofs.«172093_g2000201346594626_pallaspilot1_190_11_alg».proof.Proof.KerHost

noncomputable section

namespace Cert.KernelIdeal.RunValue
open Idealize.ShloMosaic Idealize.ShloMosaic.TcCoe Idealize.ShloMosaic.ValueIdx Idealize.SL.Sem
open Idealize.ShloMosaic.Pipeline (Dat)
open Cert.KernelIdeal Cert.KernelIdeal.Gen Cert.ConvBn

variable (m : (ℓ : Loc nD τ sig) → Buf (Elt Ideal) ℓ) (ρ : Dev nD → PrngReg)

/-- The clamped convolution of the launch arrays. -/
def convAct (c : Dev nD) : Fin 64 → Fin 256 → ℕ → EReal :=
  act (xpad (cur3 (m ((c : Thread nD τ).loc main_arg0) : S64x128x1024.Idx → EReal)))
    (wmat (cur3 (m ((c : Thread nD τ).loc main_arg1) : S256x128x5.Idx → EReal)))

/-- The intermediate array the second launch reads is the clamped convolution. -/
theorem y_at (c : Dev nD) (i : S64x256x1024.Idx) :
    (V3 m ρ c main_v3_0 : S64x256x1024.Idx → EReal) i = convAct m c (i 0) (i 1) (i 2).val := by
  rw [V3_y]
  refine (ConvValue.y_eq (V1 m ρ) c i).trans ?_
  rw [V1_arg0, wmat_eq]
  rfl

/-- The statistics array the second launch reads, summed over the batch rows, is a moment of the clamped convolution. -/
theorem stats_sum (c : Dev nD) (q : Fin 2) (o : Fin 256) :
    ∑ b : Fin 64, cur3 (α := EReal) (V3 m ρ c main_v3_1 : S64x2x256.Idx → EReal) b q o = moment (convAct m c) q.val o := by
  unfold moment
  refine Finset.sum_congr rfl fun b _ => ?_
  unfold cur3
  rw [V3_stats]
  refine (ConvValue.stats_eq (V1 m ρ) c (ix3 b q o)).trans ?_
  rw [V1_arg0, wmat_eq]
  rfl

/-- The result array after the run is `outArr` of the launch arrays. -/
theorem result_eq (c : Dev nD) :
    W4 m ρ c (Proc.devRef .tc main_v6)
      = outArr (m ((c : Thread nD τ).loc main_arg0)) (m ((c : Thread nD τ).loc main_arg1))
          (m ((c : Thread nD τ).loc main_arg2)) (m ((c : Thread nD τ).loc main_arg3)) := by
  refine (W4_arr m ρ c 4).trans ?_
  refine funext fun (i : S64x256x1024.Idx) => ?_
  refine (ApplyValue.out_eq (V3 m ρ) c i).trans ?_
  exact congr (congr (congr (congr (congrArg bnK (stats_sum m ρ c 0 (i 1))) (stats_sum m ρ c 1 (i 1)))
    (gamma_eq m ρ c (i 1))) (beta_eq m ρ c (i 1))) (y_at m ρ c i)

/-- Every weakly fair execution of the program ends, without a fault, with the result array at the one function `outArr` of the four argument arrays, and the arguments as launched. -/
theorem run :
    θ_run (defs (F := Ideal)) (onTc (τ := τ) (main (F := Ideal))) ⟨m, fun _ => 0, ρ⟩ (fun r => ∀ c : Dev nD,
      r.2.mem ((c.tc : Thread nD τ).loc main_v6)
          = outArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (result_eq m ρ c), (h c).2⟩) (run_named (F := Ideal) m ρ)

end Cert.KernelIdeal.RunValue
end
-- ==== Proof.RefConv.Pieces.lean ====
/-
  What the reference's first launch leaves in its two output staging buffers at one grid point, as the body's two stored
  values: each output is written by ONE store covering its whole buffer, whose value is computed from the 516 columns
  loaded from the padded row's block at the point's column offset and from the whole block of weights.
-/
import proofs.«172093_g2000201346594626_pallaspilot1_190_11_alg».proof.Proof.Gen.ReferenceIdeal.Frame
import Idealize.ShloMosaic.Lib.Pipeline.Value
import Idealize.ShloMosaic.Lib.Tactic

noncomputable section

namespace Cert.ReferenceIdeal.ConvValue
open Idealize.ShloMosaic Idealize.ShloMosaic.TcCoe Idealize.SL.Sem Idealize.ShloMosaic.Tactic
open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 516 columns of the padded row's block that the body loads at grid coordinates `i`. -/
abbrev ldw (i : grid0.Coords) (x0 : Vec F S1x128x1028 .f32) : Vec F S1x128x516 .f32 :=
  View.ld x0 (Rect.unit (s := S1x128x1028) (k0_off1 i) S1x128x516.size (k0_off1_inb i))

/-- The first output's buffer after the body: the clamped product, as one block. -/
theorem out2_eq (c : Dev nD) (i : grid0.Coords) (a2 : Memref sig .tc .vmem S1x128x1028 .f32) (h2 : a2.IsWhole) (a3 : Memref sig .tc .vmem S256x640 .f32) (h3 : a3.IsWhole) (a4 : Memref sig .tc .vmem S1x256x512 .f32) (h4 : a4.IsWhole) (a5 : Memref sig .tc .vmem S1x1x256x2 .f32) (h5 : a5.IsWhole)
    (x0 : Vec F S1x128x1028 .f32) (x1 : Vec F S256x640 .f32) :
    out0_A_2 c i a2 h2 a3 h3 a4 h4 a5 h5 x0 x1 = k0_pay2 (ldw i x0) x1 := by
  unfold out0_A_2
  rw [View.read_writes_eq_canon _ _ _ (cover0_A_2 c i a2 h2 a3 h3 a4 h4 a5 h5 x0 x1)]
  unfold kernelRun0_A
  dsimp only
  rw [View.canon_unit_zero hz3]
  simp only [View.readAt_eq_ld, h2.read_unread, h3.read_unread, View.ld_unit_zero (S := S256x640) hz2]

/-- The second output's buffer after the body: the two sums per output channel, as one block. -/
theorem out3_eq (c : Dev nD) (i : grid0.Coords) (a2 : Memref sig .tc .vmem S1x128x1028 .f32) (h2 : a2.IsWhole) (a3 : Memref sig .tc .vmem S256x640 .f32) (h3 : a3.IsWhole) (a4 : Memref sig .tc .vmem S1x256x512 .f32) (h4 : a4.IsWhole) (a5 : Memref sig .tc .vmem S1x1x256x2 .f32) (h5 : a5.IsWhole)
    (x0 : Vec F S1x128x1028 .f32) (x1 : Vec F S256x640 .f32) :
    out0_A_3 c i a2 h2 a3 h3 a4 h4 a5 h5 x0 x1 = k0_pay3 (ldw i x0) x1 := by
  unfold out0_A_3
  rw [View.read_writes_eq_canon _ _ _ (cover0_A_3 c i a2 h2 a3 h3 a4 h4 a5 h5 x0 x1)]
  unfold kernelRun0_A
  dsimp only
  rw [View.canon_unit_zero hz4]
  simp only [View.readAt_eq_ld, h2.read_unread, h3.read_unread, View.ld_unit_zero (S := S256x640) hz2]

end Cert.ReferenceIdeal.ConvValue
end
-- ==== Proof.RefConv.Pay.lean ====
/-
  The arithmetic of the reference's first launch at one grid point, read entry by entry over the extended reals:
  from a loaded window `v3` of 516 padded columns (128 input channels) and the folded 256 × 640 weights `v11`,
  the five shifted copies of the window stacked into 640 rows, contracted with the weights and clamped at zero
  (`conv`), and per output channel the sum of the clamped values and of their squares over the 512 columns.
-/
import proofs.«172093_g2000201346594626_pallaspilot1_190_11_alg».proof.Proof.Gen.ReferenceIdeal.Skeleton
import proofs.«172093_g2000201346594626_pallaspilot1_190_11_alg».proof.Proof.Spec
import proofs.«172093_g2000201346594626_pallaspilot1_190_11_alg».proof.Proof.LibJoinAxis
import proofs.«172093_g2000201346594626_pallaspilot1_190_11_alg».proof.Proof.LibRowSumZero
import proofs.«172093_g2000201346594626_pallaspilot1_190_11_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ConvValue
open Idealize.ShloMosaic Idealize.ShloMosaic.ValueIdx
open Cert.ReferenceIdeal Cert.ReferenceIdeal.Gen Cert.ConvBn

/-! ## The contraction -/

/-- The 256 × 640 by 640 × 512 product from a zero accumulator, at row `o` and column `s`: the sum over the
    contracted coordinate of the products of the entries. -/
theorem matmul_apply (A : FVec Ideal S256x640 .f32) (B : FVec Ideal S640x512 .f32) (o : Fin 256) (s : Fin 512) :
    matmul dot_S256x640_S640x512_S256x512_1_0_0_1_n_n none A B (constant (F := Ideal) S256x512 .f32 0x00000000#32) (ix2 o s)
      = ∑ j : Fin 640, A (ix2 o j) * B (ix2 j s) := by
  refine (Ideal.matmul_constant_zero_apply dot_S256x640_S640x512_S256x512_1_0_0_1_n_n none A B (ix2 o s)).trans ?_
  rw [← Equiv.sum_comp (contrEquiv1 dot_S256x640_S640x512_S256x512_1_0_0_1_n_n 640 rfl rfl).symm]
  refine Finset.sum_congr rfl fun j _ => ?_
  have cj := contrEquiv1_symm_val dot_S256x640_S640x512_S256x512_1_0_0_1_n_n 640 rfl rfl j
  have l2 : dot_S256x640_S640x512_S256x512_1_0_0_1_n_n.lhsIdx (ix2 o s)
      ((contrEquiv1 dot_S256x640_S640x512_S256x512_1_0_0_1_n_n 640 rfl rfl).symm j) = ix2 o j := by
    funext ax; apply Fin.ext
    match ax with
    | ⟨0, _⟩ => simp [DotDims.lhsIdx, dot_S256x640_S640x512_S256x512_1_0_0_1_n_n]; rfl
    | ⟨1, _⟩ => simp [DotDims.lhsIdx, dot_S256x640_S640x512_S256x512_1_0_0_1_n_n]; exact cj
  have r2 : dot_S256x640_S640x512_S256x512_1_0_0_1_n_n.rhsIdx (ix2 o s)
      ((contrEquiv1 dot_S256x640_S640x512_S256x512_1_0_0_1_n_n 640 rfl rfl).symm j) = ix2 j s := by
    funext ax; apply Fin.ext
    match ax with
    | ⟨0, _⟩ => simp [DotDims.rhsIdx, dot_S256x640_S640x512_S256x512_1_0_0_1_n_n]; exact cj
    | ⟨1, _⟩ => simp [DotDims.rhsIdx, dot_S256x640_S640x512_S256x512_1_0_0_1_n_n]; rfl
  rw [l2, r2]

/-! ## The stacked window -/

/-- Columns `k … k + 511` of a 128 × 516 window are a 128 × 512 block of it. -/
theorem slicesAt (k : Fin 5) : S128x516.Slices ![0, k.val] S128x512 :=
  ⟨rfl, fun a => by
    have hk := k.isLt
    match a with
    | ⟨0, _⟩ => show 0 + 128 ≤ 128; omega
    | ⟨1, _⟩ => show k.val + 512 ≤ 516; omega⟩

/-- The window shifted left by `k` columns. -/
def tapFam (v4 : FVec Ideal S128x516 .f32) (k : Fin 5) : (⟨2, ![128, 512]⟩ : Shape).Idx → EReal :=
  extractStridedSlice S128x512 ![0, k.val] v4 (slicesAt k)

theorem tapFam_apply (v4 : FVec Ideal S128x516 .f32) (k : Fin 5) (r : Fin 128) (s : Fin 512) (u : Fin 516)
    (hu : u.val = s.val + k.val) : tapFam v4 k (ix2 r s) = v4 (ix2 r u) :=
  extractStridedSlice_apply _ v4 (slicesAt k) (ix2 r s) (ix2 r u) fun a => by
    match a with
    | ⟨0, _⟩ => show r.val = 0 + r.val; omega
    | ⟨1, _⟩ => show u.val = k.val + s.val; omega

/-- The five shifted copies stacked along the rows: row `j` is input channel `j % 128` shifted by `j / 128`. -/
theorem im2col_apply (v4 : FVec Ideal S128x516 .f32) (j : Fin 640) (s : Fin 512) (u : Fin 516) (hu : u.val = s.val + tapOff j) :
    concatenate S640x512 0 [⟨S128x512, extractStridedSlice S128x512 ![0, 0] v4 slices_S128x516_o0_0_S128x512⟩,
        ⟨S128x512, extractStridedSlice S128x512 ![0, 1] v4 slices_S128x516_o0_1_S128x512⟩,
        ⟨S128x512, extractStridedSlice S128x512 ![0, 2] v4 slices_S128x516_o0_2_S128x512⟩,
        ⟨S128x512, extractStridedSlice S128x512 ![0, 3] v4 slices_S128x516_o0_3_S128x512⟩,
        ⟨S128x512, extractStridedSlice S128x512 ![0, 4] v4 slices_S128x516_o0_4_S128x512⟩]
        concatenates_S128x512_S128x512_S128x512_S128x512_S128x512_S640x512_d0 (ix2 j s)
      = v4 (ix2 (tapRow j) u) :=
  (Cert.LibJoinAxis.joinRows_apply (K := 128) (B := 512) (N := 5) (H := 640) (tapFam v4)
      concatenates_S128x512_S128x512_S128x512_S128x512_S128x512_S640x512_d0 j s ⟨tapOff j, tapOff_lt j⟩ rfl (tapRow j) rfl).trans
    (tapFam_apply v4 ⟨tapOff j, tapOff_lt j⟩ (tapRow j) s u hu)

/-! ## The payloads at an entry -/

/-- The clamped contraction of the stacked window with the weights, at output channel `o` and column `s`. -/
def conv (v3 : Vec Ideal S1x128x516 .f32) (v11 : Vec Ideal S256x640 .f32) (o : Fin 256) (s : Fin 512) : EReal :=
  max (∑ j : Fin 640, v11 (ix2 o j) *
    v3 (ix3 (0 : Fin 1) (tapRow j) (⟨s.val + tapOff j, by have := tapOff_lt j; have := s.isLt; omega⟩ : Fin 516))) 0

/-- A 1 × 128 × 516 block viewed as 128 × 516 reads the same entries. -/
theorem window_cast_apply (v3 : Vec Ideal S1x128x516 .f32) (r : Fin 128) (u : Fin 516) :
    shapeCast S128x516 v3 shapeCasts_S1x128x516_S128x516 (ix2 r u) = v3 (ix3 (0 : Fin 1) r u) :=
  shapeCast_apply v3 _ (ix2 r u) (ix3 (0 : Fin 1) r u) (by
    rw [Shape.rowMajor_val_three, Shape.rowMajor_val_two]
    show ((0 : Fin 1).val * 128 + r.val) * 516 + u.val = r.val * 516 + u.val
    simp)

/-- The clamped product at `(o, s)`. -/
theorem pay1_apply (v3 : Vec Ideal S1x128x516 .f32) (v11 : Vec Ideal S256x640 .f32) (o : Fin 256) (s : Fin 512) :
    k0_pay1 (F := Ideal) v3 v11 (ix2 o s) = conv v3 v11 o s := by
  unfold k0_pay1 conv
  refine (maximumf_apply _ _ (ix2 o s)).trans ?_
  refine congrArg₂ max ?_ ?_
  · refine (matmul_apply _ _ o s).trans ?_
    refine Finset.sum_congr rfl fun j _ => ?_
    refine congrArg₂ (· * ·) ?_ ?_
    · exact congrFun (shapeCast_self v11 _) (ix2 o j)
    · exact (im2col_apply _ j s ⟨s.val + tapOff j, by have := tapOff_lt j; have := s.isLt; omega⟩ rfl).trans
        (window_cast_apply v3 _ _)
  · exact Ideal.ofBits_zero_f32

/-- The block the body stores in the first output, at `(0, o, s)`. -/
theorem pay2_apply (v3 : Vec Ideal S1x128x516 .f32) (v11 : Vec Ideal S256x640 .f32) (o : Fin 256) (s : Fin 512) :
    k0_pay2 (F := Ideal) v3 v11 (ix3 (0 : Fin 1) o s) = conv v3 v11 o s := by
  unfold k0_pay2
  refine (shapeCast_apply (k0_pay1 (F := Ideal) v3 v11) _ (ix3 (0 : Fin 1) o s) (ix2 o s) (by
    rw [Shape.rowMajor_val_three, Shape.rowMajor_val_two]
    show o.val * 512 + s.val = ((0 : Fin 1).val * 256 + o.val) * 512 + s.val
    simp)).trans ?_
  exact pay1_apply v3 v11 o s

/-- The block the body stores in the second output, at `(0, 0, o, q)`: the sum over the 512 columns of the clamped
    values (`q = 0`) or of their squares (`q = 1`). -/
theorem pay3_apply (v3 : Vec Ideal S1x128x516 .f32) (v11 : Vec Ideal S256x640 .f32) (o : Fin 256) (q : Fin 2) :
    k0_pay3 (F := Ideal) v3 v11 (ix4 (0 : Fin 1) (0 : Fin 1) o q) = ∑ k : Fin 512, pw q.val (conv v3 v11 o k) := by
  unfold k0_pay3
  refine (shapeCast_apply _ _ (ix4 (0 : Fin 1) (0 : Fin 1) o q) (ix2 o q) (by
    rw [Shape.rowMajor_val_four, Shape.rowMajor_val_two]
    show o.val * 2 + q.val = (((0 : Fin 1).val * 1 + (0 : Fin 1).val) * 256 + o.val) * 2 + q.val
    simp)).trans ?_
  match q with
  | ⟨0, _⟩ =>
    refine (concatenate_pair_apply_left (t := S256x2) (s₁ := S256x1) (s₂ := S256x1) (1 : Fin 2) _ _ concatenates_S256x1_S256x1_S256x2_d1 (ix2 o (⟨0, by omega⟩ : Fin 2)) rfl
      (ix2 o (0 : Fin 1)) (fun b => by match b with | ⟨0, _⟩ => rfl | ⟨1, _⟩ => rfl)).trans ?_
    refine (Cert.Keepdims.shapeCast_a_a1_apply _ shapeCasts_S256_S256x1 o 0).trans ?_
    refine (Cert.RowSumZero.rowSum_zero_apply (k0_pay1 (F := Ideal) v3 v11) reduces_S256x512_S256 (.inl rfl) rfl o).trans ?_
    refine Finset.sum_congr rfl fun k _ => ?_
    rw [pay1_apply]
    rfl
  | ⟨1, _⟩ =>
    refine (concatenate_pair_apply_right (t := S256x2) (s₁ := S256x1) (s₂ := S256x1) (1 : Fin 2) _ _ concatenates_S256x1_S256x1_S256x2_d1 (ix2 o (⟨1, by omega⟩ : Fin 2)) rfl rfl
      (ix2 o (0 : Fin 1)) (fun b hb => by match b with | ⟨0, _⟩ => rfl | ⟨1, _⟩ => exact absurd rfl hb) rfl).trans ?_
    refine (Cert.Keepdims.shapeCast_a_a1_apply _ shapeCasts_S256_S256x1 o 0).trans ?_
    refine (Cert.RowSumZero.rowSum_zero_apply (mulf (k0_pay1 (F := Ideal) v3 v11) (k0_pay1 (F := Ideal) v3 v11)) reduces_S256x512_S256 (.inl rfl) rfl o).trans ?_
    refine Finset.sum_congr rfl fun k _ => ?_
    refine (mulf_apply _ _ _).trans ?_
    rw [pay1_apply]
    rfl

/-- The same two facts at any index of the stored blocks. -/
theorem pay2_at (v3 : Vec Ideal S1x128x516 .f32) (v11 : Vec Ideal S256x640 .f32) (j : S1x256x512.Idx) :
    k0_pay2 (F := Ideal) v3 v11 j = conv v3 v11 (j 1) (j 2) := by
  obtain ⟨z, o, s, rfl⟩ : ∃ (z : Fin 1) (o : Fin 256) (s : Fin 512), j = ix3 z o s := ⟨j 0, j 1, j 2, eq_ix3 j⟩
  obtain rfl : z = 0 := Subsingleton.elim _ _
  exact pay2_apply v3 v11 o s

theorem pay3_at (v3 : Vec Ideal S1x128x516 .f32) (v11 : Vec Ideal S256x640 .f32) (j : S1x1x256x2.Idx) :
    k0_pay3 (F := Ideal) v3 v11 j = ∑ k : Fin 512, pw (j 3).val (conv v3 v11 (j 2) k) := by
  obtain ⟨z, z', o, q, rfl⟩ : ∃ (z : Fin 1) (z' : Fin 1) (o : Fin 256) (q : Fin 2), j = ix4 z z' o q :=
    ⟨j 0, j 1, j 2, j 3, eq_ix4 j⟩
  obtain rfl : z = 0 := Subsingleton.elim _ _
  obtain rfl : z' = 0 := Subsingleton.elim _ _
  exact pay3_apply v3 v11 o q

/-! ## The window as a part of the padded array -/

/-- When the loaded window is columns `l * 512 … l * 512 + 515` of row `b` of a padded array `X0` (`l < 2`) and the
    weights are `X2`, the clamped contraction at column `s` is the clamped convolution of the padded row at position
    `l * 512 + s`: every position read, at most `512 + 511 + 4`, is inside the 1028 materialized columns. -/
theorem conv_eq_act (X0 : S64x128x1028.Idx → EReal) (X2 : S256x640.Idx → EReal)
    (v3 : Vec Ideal S1x128x516 .f32) (v11 : Vec Ideal S256x640 .f32) (b : Fin 64) (l : ℕ) (hl : l < 2)
    (h0 : ∀ (r : Fin 128) (u : Fin 516) (p : Fin 1028), p.val = l * 512 + u.val → v3 (ix3 (0 : Fin 1) r u) = X0 (ix3 b r p))
    (h1 : ∀ (o : Fin 256) (j : Fin 640), v11 (ix2 o j) = X2 (ix2 o j))
    (o : Fin 256) (s : Fin 512) (P : ℕ) (hP : P = l * 512 + s.val) :
    conv v3 v11 o s = act (ofPadded (cur3 X0)) (cur2 X2) b o P := by
  subst hP
  unfold conv act
  refine congrArg₂ max (Finset.sum_congr rfl fun j _ => ?_) rfl
  have hj := tapOff_lt j
  have hs := s.isLt
  have hlt : l * 512 + s.val + tapOff j < 1028 := by omega
  rw [h1 o j, h0 (tapRow j) _ ⟨l * 512 + s.val + tapOff j, hlt⟩ (by show l * 512 + s.val + tapOff j = l * 512 + (s.val + tapOff j); omega)]
  unfold ofPadded cur2 cur3
  rw [dif_pos hlt]

end Cert.ReferenceIdeal.ConvValue
end
-- ==== Proof.RefConv.lean ====
/-
  The reference's first launch, read as values: over its 64 × 2 grid points (batch row `t / 2`, tile `t % 2`) the
  body's two stores write back, block by block, the clamped convolution of the materialized padded rows and its two
  sums per output channel and tile; the blocks tile the two output arrays, so each array ends as ONE function of its
  index.
-/
import proofs.«172093_g2000201346594626_pallaspilot1_190_11_alg».proof.Proof.Gen.ReferenceIdeal.Frame
import proofs.«172093_g2000201346594626_pallaspilot1_190_11_alg».proof.Proof.Spec
import proofs.«172093_g2000201346594626_pallaspilot1_190_11_alg».proof.Proof.RefConv.Pieces
import proofs.«172093_g2000201346594626_pallaspilot1_190_11_alg».proof.Proof.RefConv.Pay
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ConvValue
open Idealize.ShloMosaic Idealize.ShloMosaic.TcCoe Idealize.ShloMosaic.ValueIdx Idealize.SL.Sem
open Idealize.ShloMosaic.Pipeline (Dat)
open Cert.ReferenceIdeal Cert.ReferenceIdeal.Gen Cert.ConvBn

variable (V : (c : Dev nD) → (b : Ref sig .tc) → Buf (Elt Ideal) ((c : Thread nD τ).loc b))

/-! ## The grid's index maps, decided over its 128 points -/

/-- At point `t` (batch row `t / 2`, tile `t % 2`): the padded input's block is row `t / 2`, whole; the weights'
    block is the whole matrix; the outputs' blocks are at `(t / 2, 0, t % 2)` and `(t / 2, t % 2, 0, 0)`; and the body
    loads its window at column `(t % 2) * 512`. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = 0 ∧ win0_2.index t (2 : Fin 3) = t.val % 2
    ∧ win0_3.index t (0 : Fin 4) = t.val / 2 ∧ win0_3.index t (1 : Fin 4) = t.val % 2
    ∧ win0_3.index t (2 : Fin 4) = 0 ∧ win0_3.index t (3 : Fin 4) = 0
    ∧ k0_off1 (grid0.coords t) (0 : Fin 3) = 0 ∧ k0_off1 (grid0.coords t) (1 : Fin 3) = 0
    ∧ k0_off1 (grid0.coords t) (2 : Fin 3) = t.val % 2 * 512 :=
  (by decide +kernel : ∀ t : Fin grid0.N, _)

/-! ## The body's two inputs at a point, as parts of the arrays -/

/-- The loaded window at point `t` is columns `(t % 2) * 512 …` of row `t / 2` of the padded array. -/
theorem window_read (c : Dev nD) (t : Fin cfg0.N) (r : Fin 128) (u : Fin 516) (b : Fin 64) (p : Fin 1028)
    (hb : b.val = t.val / 2) (hp : p.val = t.val % 2 * 512 + u.val) :
    ldw (F := Ideal) (grid0.coords t) (iblk0 (F := Ideal) V c 0 t) (ix3 (0 : Fin 1) r u)
      = (V c main_v0 : S64x128x1028.Idx → EReal) (ix3 b r p) := by
  obtain ⟨e0, e1, e2, -, -, -, -, -, -, -, -, -, k0, k1, k2⟩ := idx_facts t
  show (V c main_v0 : S64x128x1028.Idx → EReal) (((cfg0.win 0).blk t).view.emb _) = _
  refine congrArg _ (funext fun a => Fin.ext ?_)
  match a with
  | ⟨0, _⟩ =>
    show win0_0.index t (0 : Fin 3) * 1 + 1 * (k0_off1 (grid0.coords t) (0 : Fin 3) + 1 * (0 : Fin 1).val) = b.val
    simp only [Fin.val_zero]; omega
  | ⟨1, _⟩ =>
    show win0_0.index t (1 : Fin 3) * 128 + 1 * (k0_off1 (grid0.coords t) (1 : Fin 3) + 1 * r.val) = r.val
    omega
  | ⟨2, _⟩ =>
    show win0_0.index t (2 : Fin 3) * 1028 + 1 * (k0_off1 (grid0.coords t) (2 : Fin 3) + 1 * u.val) = p.val
    omega

/-- The weights' block at any point is the whole matrix. -/
theorem weights_read (c : Dev nD) (t : Fin cfg0.N) (o : Fin 256) (j : Fin 640) :
    (iblk0 (F := Ideal) V c 1 t : Vec Ideal S256x640 .f32) (ix2 o j) = (V c main_v2 : S256x640.Idx → EReal) (ix2 o j) := by
  obtain ⟨-, -, -, w0, w1, -⟩ := idx_facts t
  show (V c main_v2 : S256x640.Idx → EReal) (((cfg0.win 1).blk t).view.emb _) = _
  refine congrArg _ (funext fun a => Fin.ext ?_)
  match a with
  | ⟨0, _⟩ => show win0_1.index t (0 : Fin 2) * 256 + 1 * o.val = o.val; omega
  | ⟨1, _⟩ => show win0_1.index t (1 : Fin 2) * 640 + 1 * j.val = j.val; omega

/-- So the clamped contraction the body computes at point `t`, at output channel `o` and column `s`, is the clamped
    convolution of padded row `t / 2` at position `(t % 2) * 512 + s`. -/
theorem point_conv (c : Dev nD) (t : Fin cfg0.N) (o : Fin 256) (s : Fin 512) (B : Fin 64) (O : Fin 256) (P : ℕ)
    (hB : B.val = t.val / 2) (hO : O.val = o.val) (hP : P = t.val % 2 * 512 + s.val) :
    conv (ldw (F := Ideal) (grid0.coords t) (iblk0 (F := Ideal) V c 0 t)) (iblk0 (F := Ideal) V c 1 t) o s
      = act (ofPadded (cur3 (V c main_v0 : S64x128x1028.Idx → EReal))) (cur2 (V c main_v2 : S256x640.Idx → EReal)) B O P := by
  obtain rfl : O = o := Fin.ext hO
  exact conv_eq_act (V c main_v0) (V c main_v2) (ldw (F := Ideal) (grid0.coords t) (iblk0 (F := Ideal) V c 0 t))
    (iblk0 (F := Ideal) V c 1 t) B (t.val % 2) (Nat.mod_lt _ (by norm_num))
    (fun r u p hp => window_read V c t r u B p hB hp) (fun o j => weights_read V c t o j) O s P hP

/-! ## The two output arrays as functions of the index -/

/-- The intermediate array: at `(b, o, p)` the clamped convolution of padded row `b`. -/
def G2 (c : Dev nD) : S64x256x1024.Idx → EReal := fun i => act (ofPadded (cur3 (V c main_v0 : S64x128x1028.Idx → EReal))) (cur2 (V c main_v2 : S256x640.Idx → EReal)) (i 0) (i 1) (i 2).val

/-- The statistics array: at `(b, l, o, q)` the sum over tile `l`'s 512 positions of the clamped values or their squares. -/
def G3 (c : Dev nD) : S64x2x256x2.Idx → EReal := fun i =>
  ∑ k : Fin 512, pw (i 3).val (act (ofPadded (cur3 (V c main_v0 : S64x128x1028.Idx → EReal))) (cur2 (V c main_v2 : S256x640.Idx → EReal)) (i 0) (i 2) ((i 1).val * 512 + k.val))

/-- What point `t` writes back to the intermediate array is its block of `G2`. -/
theorem flushed2_eq (c : Dev nD) (t : Fin cfg0.N) :
    (dat0 (F := Ideal) V c).flushed 2 t = ((cfg0.win 2).blk t).view.read (Elt Ideal) (G2 V c) := by
  show (cfg0.win 2).cut (grid0.coords t) ((dat0 (F := Ideal) V c).after 2 t) = _
  rw [after0_2]
  unfold outsAt0
  dsimp only
  rw [out2_eq]
  obtain ⟨-, -, -, -, -, f0, f1, f2, -⟩ := idx_facts t
  funext y
  have hy0 : (y 0).val < 1 := (y 0).isLt
  show k0_pay2 (F := Ideal) (ldw (F := Ideal) (grid0.coords t) (iblk0 (F := Ideal) V c 0 t)) (iblk0 (F := Ideal) V c 1 t) ((cfg0.win 2).xinj (grid0.coords t) y) = G2 V c (((cfg0.win 2).blk t).view.emb y)
  refine (pay2_at (ldw (F := Ideal) (grid0.coords t) (iblk0 (F := Ideal) V c 0 t)) (iblk0 (F := Ideal) V c 1 t) ((cfg0.win 2).xinj (grid0.coords t) y)).trans ?_
  refine point_conv V c t _ _ _ _ _ ?_ ?_ ?_
  · show win0_2.index t (0 : Fin 3) * 1 + 1 * (y 0).val = t.val / 2; omega
  · show win0_2.index t (1 : Fin 3) * 256 + 1 * (y 1).val = (y 1).val; omega
  · show win0_2.index t (2 : Fin 3) * 512 + 1 * (y 2).val = t.val % 2 * 512 + (y 2).val; omega

/-- Every index of the intermediate array is in the block of the point `(b, p / 512)`. -/
theorem cover2 (i : S64x256x1024.Idx) :
    ∃ t : Fin cfg0.N, (cfg0.win 2).flush t = true ∧ i ∈ ((cfg0.win 2).blk t).view.set := by
  have h0 : (i 0).val < 64 := (i 0).isLt
  have h1 : (i 1).val < 256 := (i 1).isLt
  have h2 : (i 2).val < 1024 := (i 2).isLt
  obtain ⟨t, ht⟩ : ∃ t : Fin cfg0.N, t.val = (i 0).val * 2 + (i 2).val / 512 :=
    ⟨⟨(i 0).val * 2 + (i 2).val / 512, lt_of_lt_of_eq (by omega : (i 0).val * 2 + (i 2).val / 512 < 128) N_0.symm⟩, rfl⟩
  obtain ⟨-, -, -, -, -, f0, f1, f2, -⟩ := idx_facts t
  refine ⟨t, flush0_2 t, ?_⟩
  show i ∈ ((View.whole main_v3_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

theorem final2 (c : Dev nD) : ((dat0 (F := Ideal) V c).arrAt 2 cfg0.N : S64x256x1024.Idx → EReal) = G2 V c :=
  (dat0 (F := Ideal) V c).arrAt_eq_of_cover 2 (G2 V c) (fun t _ => flushed2_eq V c t) cover2

/-- What point `t` writes back to the statistics array is its block of `G3`. -/
theorem flushed3_eq (c : Dev nD) (t : Fin cfg0.N) :
    (dat0 (F := Ideal) V c).flushed 3 t = ((cfg0.win 3).blk t).view.read (Elt Ideal) (G3 V c) := by
  show (cfg0.win 3).cut (grid0.coords t) ((dat0 (F := Ideal) V c).after 3 t) = _
  rw [after0_3]
  unfold outsAt0
  dsimp only
  rw [out3_eq]
  obtain ⟨-, -, -, -, -, -, -, -, g0, g1, g2, g3, -⟩ := idx_facts t
  funext y
  have hy0 : (y 0).val < 1 := (y 0).isLt
  have hy1 : (y 1).val < 1 := (y 1).isLt
  show k0_pay3 (F := Ideal) (ldw (F := Ideal) (grid0.coords t) (iblk0 (F := Ideal) V c 0 t)) (iblk0 (F := Ideal) V c 1 t) ((cfg0.win 3).xinj (grid0.coords t) y) = G3 V c (((cfg0.win 3).blk t).view.emb y)
  refine (pay3_at (ldw (F := Ideal) (grid0.coords t) (iblk0 (F := Ideal) V c 0 t)) (iblk0 (F := Ideal) V c 1 t) ((cfg0.win 3).xinj (grid0.coords t) y)).trans ?_
  have e3 : ((((cfg0.win 3).blk t).view.emb y) 3).val = (y 3).val := by
    show win0_3.index t (3 : Fin 4) * 2 + 1 * (y 3).val = (y 3).val; omega
  show _ = ∑ k : Fin 512, pw ((((cfg0.win 3).blk t).view.emb y) 3).val _
  rw [e3]
  refine Finset.sum_congr rfl fun k _ => congrArg (pw (y 3).val) ?_
  refine point_conv V c t _ k _ _ _ ?_ ?_ ?_
  · show win0_3.index t (0 : Fin 4) * 1 + 1 * (y 0).val = t.val / 2; omega
  · show win0_3.index t (2 : Fin 4) * 256 + 1 * (y 2).val = (y 2).val; omega
  · show (win0_3.index t (1 : Fin 4) * 1 + 1 * (y 1).val) * 512 + k.val = t.val % 2 * 512 + k.val
    rw [g1]; omega

/-- Every index of the statistics array is in the block of the point `(b, l)`. -/
theorem cover3 (i : S64x2x256x2.Idx) :
    ∃ t : Fin cfg0.N, (cfg0.win 3).flush t = true ∧ i ∈ ((cfg0.win 3).blk t).view.set := by
  have h0 : (i 0).val < 64 := (i 0).isLt
  have h1 : (i 1).val < 2 := (i 1).isLt
  have h2 : (i 2).val < 256 := (i 2).isLt
  have h3 : (i 3).val < 2 := (i 3).isLt
  obtain ⟨t, ht⟩ : ∃ t : Fin cfg0.N, t.val = (i 0).val * 2 + (i 1).val :=
    ⟨⟨(i 0).val * 2 + (i 1).val, lt_of_lt_of_eq (by omega : (i 0).val * 2 + (i 1).val < 128) N_0.symm⟩, rfl⟩
  obtain ⟨-, -, -, -, -, -, -, -, g0, g1, g2, g3, -⟩ := idx_facts t
  refine ⟨t, flush0_3 t, ?_⟩
  show i ∈ ((View.whole main_v3_1).slice (win0_3.rect t)).set
  rw [View.set_slice_whole, Rect.mem_set_unit]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 2 ≤ (i 3).val ∧ (i 3).val < win0_3.index t (3 : Fin 4) * 2 + 2; omega

theorem final3 (c : Dev nD) : ((dat0 (F := Ideal) V c).arrAt 3 cfg0.N : S64x2x256x2.Idx → EReal) = G3 V c :=
  (dat0 (F := Ideal) V c).arrAt_eq_of_cover 3 (G3 V c) (fun t _ => flushed3_eq V c t) cover3

/-- After the first launch the intermediate array holds, at (b, o, t), the clamped convolution of the materialized padded row `b`. -/
theorem y_eq (c : Dev nD) (i : S64x256x1024.Idx) :
    ((dat0 (F := Ideal) V c).arrAt 2 cfg0.N : S64x256x1024.Idx → EReal) i
      = act (ofPadded (cur3 (V c main_v0 : S64x128x1028.Idx → EReal))) (cur2 (V c main_v2 : S256x640.Idx → EReal)) (i 0) (i 1) (i 2).val :=
  congrFun (final2 V c) i

/-- and the statistics array holds, at (b, l, o, q), the sum over the 512 positions of tile `l` of the clamped values (q = 0) or of their squares (q = 1). -/
theorem stats_eq (c : Dev nD) (i : S64x2x256x2.Idx) :
    ((dat0 (F := Ideal) V c).arrAt 3 cfg0.N : S64x2x256x2.Idx → EReal) i
      = ∑ t : Fin 512, pw (i 3).val (act (ofPadded (cur3 (V c main_v0 : S64x128x1028.Idx → EReal))) (cur2 (V c main_v2 : S256x640.Idx → EReal)) (i 0) (i 2) ((i 1).val * 512 + t.val)) :=
  congrFun (final3 V c) i

end Cert.ReferenceIdeal.ConvValue
end
-- ==== Proof.RefApply.lean ====
/-
  The reference's second launch, from blocks to the result array. The grid is 64 × 2: point (b, l) works on batch row b
  and on positions 512·l … 512·l + 511. It reads that block of the intermediate array and the whole scale and shift
  columns, and writes back the block's values times the channel's scale plus the channel's shift. What a point writes is
  its block of ONE function `G` of the index, and the 128 blocks tile the result array, so the array ends holding `G`.
-/
import proofs.«172093_g2000201346594626_pallaspilot1_190_11_alg».proof.Proof.Gen.ReferenceIdeal.Frame
import proofs.«172093_g2000201346594626_pallaspilot1_190_11_alg».proof.Proof.Spec
import proofs.«172093_g2000201346594626_pallaspilot1_190_11_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.ApplyValue
open Idealize.ShloMosaic Idealize.ShloMosaic.TcCoe Idealize.ShloMosaic.ValueIdx Idealize.SL.Sem
open Idealize.ShloMosaic.Pipeline (Dat)
open Cert.ReferenceIdeal Cert.ReferenceIdeal.Gen Cert.ConvBn

section Layout
variable {α : Type}

/-- A [1, 256, 512] block viewed as a [256, 512] array. -/
theorem drop3_apply (x : S1x256x512.Idx → α) (h : S1x256x512.ShapeCasts S256x512) (o : Fin 256) (s : Fin 512) :
    shapeCast S256x512 x h (ix2 o s) = x (ix3 (0 : Fin 1) o s) :=
  shapeCast_apply x h _ _ (by
    rw [Shape.rowMajor_val_three, Shape.rowMajor_val_two]
    show (0 * 256 + o.val) * 512 + s.val = o.val * 512 + s.val
    omega)

/-- A [256, 512] array viewed as a [1, 256, 512] block. -/
theorem add3_apply (x : S256x512.Idx → α) (h : S256x512.ShapeCasts S1x256x512) (o : Fin 256) (s : Fin 512) :
    shapeCast S1x256x512 x h (ix3 (0 : Fin 1) o s) = x (ix2 o s) :=
  shapeCast_apply x h _ _ (by
    rw [Shape.rowMajor_val_three, Shape.rowMajor_val_two]
    show o.val * 512 + s.val = (0 * 256 + o.val) * 512 + s.val
    omega)

/-- A [256, 1] column repeated along 512 positions. -/
theorem colBcast_apply (x : S256x1.Idx → α) (h : S256x1.Broadcasts S256x512) (o : Fin 256) (s : Fin 512) :
    broadcastTo S256x512 x h (ix2 o s) = x (ix2 o (0 : Fin 1)) :=
  Cert.Keepdims.broadcastTo_a1_ab_apply x h o s

end Layout

/-- The body's result at (0, o, s): the block's value times the channel's scale plus the channel's shift. -/
theorem pay_apply (v0 : Vec Ideal S1x256x512 .f32) (v2 v6 : Vec Ideal S256x1 .f32) (o : Fin 256) (s : Fin 512) :
    k1_pay1 (F := Ideal) v0 v2 v6 (ix3 (0 : Fin 1) o s)
      = v0 (ix3 (0 : Fin 1) o s) * v2 (ix2 o (0 : Fin 1)) + v6 (ix2 o (0 : Fin 1)) := by
  unfold k1_pay1
  simp only [add3_apply, addf_apply, mulf_apply, colBcast_apply, drop3_apply, shapeCast_self]

/-- Position `s` of half `l` of a row of 1024 positions. -/
abbrev pos (l : Fin 2) (s : Fin 512) : Fin 1024 := ⟨l.val * 512 + s.val, by have := l.isLt; have := s.isLt; omega⟩

/-- The body's result over blocks that are restrictions of three arrays: the block of the intermediate array is half `l`
    of batch row `b` of `A0`, the other two blocks are the whole columns. -/
theorem point_eq (x0 : Vec Ideal S1x256x512 .f32) (x1 x2 : Vec Ideal S256x1 .f32)
    (A0 : S64x256x1024.Idx → EReal) (A1 A2 : S256x1.Idx → EReal) (b : Fin 64) (l : Fin 2)
    (h0 : ∀ (o : Fin 256) (s : Fin 512), x0 (ix3 (0 : Fin 1) o s) = A0 (ix3 b o (pos l s)))
    (h1 : ∀ o : Fin 256, x1 (ix2 o (0 : Fin 1)) = A1 (ix2 o (0 : Fin 1)))
    (h2 : ∀ o : Fin 256, x2 (ix2 o (0 : Fin 1)) = A2 (ix2 o (0 : Fin 1)))
    (o : Fin 256) (s : Fin 512) :
    k1_pay1 (F := Ideal) x0 x1 x2 (ix3 (0 : Fin 1) o s)
      = cur3 A0 b o (pos l s) * cur2 A1 o 0 + cur2 A2 o 0 := by
  rw [pay_apply, h0, h1, h2]
  rfl

theorem hz3 : (![0, 0, 0] : Fin 3 → Nat) = fun _ => 0 := funext fun a => by fin_cases a <;> rfl
theorem hz2 : (![0, 0] : Fin 2 → Nat) = fun _ => 0 := funext fun a => by fin_cases a <;> rfl

variable (V : (c : Dev nD) → (b : Ref sig .tc) → Buf (Elt Ideal) ((c : Thread nD τ).loc b))

/-- The result array as one function of the index. -/
def G (c : Dev nD) : S64x256x1024.Idx → EReal := fun i =>
  cur3 (α := EReal) (V c main_v3_0 : S64x256x1024.Idx → EReal) (i 0) (i 1) (i 2) * cur2 (α := EReal) (V c main_v19 : S256x1.Idx → EReal) (i 1) 0
    + cur2 (α := EReal) (V c main_v23 : S256x1.Idx → EReal) (i 1) 0

/-- The batch row and the half of the positions a grid point works on. -/
abbrev row (t : Fin cfg1.N) : Fin 64 := ⟨t.val / 2, by have h : t.val < 128 := (t.cast N_1).isLt; omega⟩
abbrev half (t : Fin cfg1.N) : Fin 2 := ⟨t.val % 2, by omega⟩

/-- The printed index maps over the grid: the intermediate array's and the result's blocks move with the point along
    the batch axis and along the positions, the two columns stay at block 0. -/
theorem idx_facts : ∀ t : Fin cfg1.N,
    win1_0.index t (0 : Fin 3) = t.val / 2 ∧ win1_0.index t (1 : Fin 3) = 0 ∧ win1_0.index t (2 : Fin 3) = t.val % 2
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 2 ∧ win1_3.index t (1 : Fin 3) = 0 ∧ win1_3.index t (2 : Fin 3) = t.val % 2 :=
  (by decide +kernel : ∀ t : Fin grid1.N, _)

/-- The intermediate array's block at point `t` is half `half t` of its batch row `row t`. -/
theorem iblk0_apply (c : Dev nD) (t : Fin cfg1.N) (o : Fin 256) (s : Fin 512) :
    (iblk1 V c 0 t : Vec Ideal S1x256x512 .f32) (ix3 (0 : Fin 1) o s)
      = (V c main_v3_0 : S64x256x1024.Idx → EReal) (ix3 (row t) o (pos (half t) s)) := by
  obtain ⟨e0, e1, e2, -⟩ := idx_facts t
  unfold iblk1
  rw [View.read_apply]
  show (V c main_v3_0 : S64x256x1024.Idx → EReal) _ = V c main_v3_0 _
  congr 1
  funext a
  apply Fin.ext
  match a with
  | ⟨0, _⟩ => show win1_0.index t (0 : Fin 3) * 1 + 1 * 0 = t.val / 2; omega
  | ⟨1, _⟩ => show win1_0.index t (1 : Fin 3) * 256 + 1 * o.val = o.val; omega
  | ⟨2, _⟩ => show win1_0.index t (2 : Fin 3) * 512 + 1 * s.val = t.val % 2 * 512 + s.val; omega

/-- The scale column's block at every point is the whole column. -/
theorem iblk1_apply (c : Dev nD) (t : Fin cfg1.N) (o : Fin 256) :
    (iblk1 V c 1 t : Vec Ideal S256x1 .f32) (ix2 o (0 : Fin 1)) = (V c main_v19 : S256x1.Idx → EReal) (ix2 o (0 : Fin 1)) := by
  obtain ⟨-, -, -, e0, e1, -⟩ := idx_facts t
  unfold iblk1
  rw [View.read_apply]
  show (V c main_v19 : S256x1.Idx → EReal) _ = V c main_v19 _
  congr 1
  funext a
  apply Fin.ext
  match a with
  | ⟨0, _⟩ => show win1_1.index t (0 : Fin 2) * 256 + 1 * o.val = o.val; omega
  | ⟨1, _⟩ => show win1_1.index t (1 : Fin 2) * 1 + 1 * 0 = 0; omega

/-- The shift column's block at every point is the whole column. -/
theorem iblk2_apply (c : Dev nD) (t : Fin cfg1.N) (o : Fin 256) :
    (iblk1 V c 2 t : Vec Ideal S256x1 .f32) (ix2 o (0 : Fin 1)) = (V c main_v23 : S256x1.Idx → EReal) (ix2 o (0 : Fin 1)) := by
  obtain ⟨-, -, -, -, -, e0, e1, -⟩ := idx_facts t
  unfold iblk1
  rw [View.read_apply]
  show (V c main_v23 : S256x1.Idx → EReal) _ = V c main_v23 _
  congr 1
  funext a
  apply Fin.ext
  match a with
  | ⟨0, _⟩ => show win1_2.index t (0 : Fin 2) * 256 + 1 * o.val = o.val; omega
  | ⟨1, _⟩ => show win1_2.index t (1 : Fin 2) * 1 + 1 * 0 = 0; omega

/-- The result's block at point `t` sits at half `half t` of batch row `row t` of the result array. -/
theorem emb3 (t : Fin cfg1.N) (o : Fin 256) (s : Fin 512) :
    ((cfg1.win 3).blk t).view.emb (ix3 (0 : Fin 1) o s) = (ix3 (row t) o (pos (half t) s) : S64x256x1024.Idx) := by
  obtain ⟨-, -, -, -, -, -, -, e0, e1, e2⟩ := idx_facts t
  funext a
  apply Fin.ext
  match a with
  | ⟨0, _⟩ => show win1_3.index t (0 : Fin 3) * 1 + 1 * 0 = t.val / 2; omega
  | ⟨1, _⟩ => show win1_3.index t (1 : Fin 3) * 256 + 1 * o.val = o.val; omega
  | ⟨2, _⟩ => show win1_3.index t (2 : Fin 3) * 512 + 1 * s.val = t.val % 2 * 512 + s.val; omega

/-- What point `t` writes back is block `t` of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz3]
  simp only [View.ld_unit_zero (S := S1x256x512) hz3, View.ld_unit_zero (S := S256x1) hz2]
  funext j
  show k1_pay1 (F := Ideal) (iblk1 V c 0 t) (iblk1 V c 1 t) (iblk1 V c 2 t) j = _
  obtain ⟨u, o, s, rfl⟩ : ∃ (u : Fin 1) (o : Fin 256) (s : Fin 512), j = ix3 u o s := ⟨j 0, j 1, j 2, eq_ix3 j⟩
  obtain rfl : u = 0 := Subsingleton.elim _ _
  refine (point_eq (iblk1 V c 0 t) (iblk1 V c 1 t) (iblk1 V c 2 t)
    (V c main_v3_0) (V c main_v19) (V c main_v23) (row t) (half t)
    (iblk0_apply V c t) (iblk1_apply V c t) (iblk2_apply V c t) o s).trans ?_
  rw [View.read_apply]
  show _ = G V c (((cfg1.win 3).blk t).view.emb (ix3 (0 : Fin 1) o s))
  rw [emb3]
  rfl

/-- An index of the result array lies in point `t`'s block iff each coordinate lies in the block's range on its axis. -/
theorem mem_blk (t : Fin cfg1.N) (i : S64x256x1024.Idx) :
    i ∈ ((cfg1.win 3).blk t).view.set ↔ ∀ a : Fin 3, win1_3.index t a * S1x256x512.size a ≤ (i a).val
      ∧ (i a).val < win1_3.index t a * S1x256x512.size a + S1x256x512.size a := by
  show i ∈ ((View.whole main_v24).slice (win1_3.rect t)).set ↔ _
  rw [View.set_slice_whole, Rect.mem_set_unit]
  exact Iff.rfl

/-- Every index of the result array lies in the block of the point that works on its batch row and its half. -/
theorem cover (i : S64x256x1024.Idx) :
    ∃ t : Fin cfg1.N, (cfg1.win 3).flush t = true ∧ i ∈ ((cfg1.win 3).blk t).view.set := by
  have h0 : (i 0).val < 64 := (i 0).isLt
  have h1 : (i 1).val < 256 := (i 1).isLt
  have h2 : (i 2).val < 1024 := (i 2).isLt
  obtain ⟨t, ht⟩ : ∃ t : Fin cfg1.N, t.val = (i 0).val * 2 + (i 2).val / 512 :=
    ⟨⟨(i 0).val * 2 + (i 2).val / 512, by rw [show cfg1.N = 128 from N_1]; omega⟩, rfl⟩
  obtain ⟨-, -, -, -, -, -, -, e0, e1, e2⟩ := idx_facts t
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 256 ≤ (i 1).val ∧ (i 1).val < win1_3.index t (1 : Fin 3) * 256 + 256
    omega
  | ⟨2, _⟩ =>
    show win1_3.index t (2 : Fin 3) * 512 ≤ (i 2).val ∧ (i 2).val < win1_3.index t (2 : Fin 3) * 512 + 512
    omega

/-- The result array after the launch is `G`. -/
theorem final (c : Dev nD) : (dat1 (F := Ideal) V c).arrAt 3 cfg1.N = G V c :=
  (dat1 (F := Ideal) V c).arrAt_eq_of_cover 3 (G V c) (fun t _ => flushed_eq V c t) cover

/-- After the second launch the result array holds, at (b, o, t), the intermediate value times the scale column plus the shift column. -/
theorem out_eq (c : Dev nD) (i : S64x256x1024.Idx) :
    ((dat1 (F := Ideal) V c).arrAt 3 cfg1.N : S64x256x1024.Idx → EReal) i
      = cur3 (α := EReal) (V c main_v3_0 : S64x256x1024.Idx → EReal) (i 0) (i 1) (i 2) * cur2 (α := EReal) (V c main_v19 : S256x1.Idx → EReal) (i 1) 0
          + cur2 (α := EReal) (V c main_v23 : S256x1.Idx → EReal) (i 1) 0 := by
  rw [final V c]
  rfl

end Cert.ReferenceIdeal.ApplyValue
end
-- ==== Proof.RefNamed.lean ====
import proofs.«172093_g2000201346594626_pallaspilot1_190_11_alg».proof.Proof.Gen.ReferenceIdeal.Frame

set_option maxRecDepth 16384

noncomputable section

namespace Cert.ReferenceIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, its result array ends at the contents the
    last launch's write-backs leave (the fold `W6` read at the result), and the argument arrays end as launched. -/
theorem run_named : θ_run defs (onTc (τ := τ) (main (F := F))) ⟨m, fun _ => 0, ρ⟩ (fun r => ∀ c : Dev nD,
      r.2.mem ((c.tc : Thread nD τ).loc main_v24) = W6 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v24 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.ReferenceIdeal.RunValue

end
-- ==== Proof.RefRun.Layout.lean ====
import proofs.«172093_g2000201346594626_pallaspilot1_190_11_alg».proof.Proof.Gen.ReferenceIdeal
import proofs.«172093_g2000201346594626_pallaspilot1_190_11_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-!
  What the program builds before the first launch, as functions of the argument arrays and read at an index.

  The input is padded along its last axis by two entries of the converted integer zero at each end (`padded`): read at a
  padded position `s` it is the input at `s - 2` when `2 ≤ s < 1026` and zero otherwise, which is Spec's `xpad`. The
  weights [256, 128, 5] are transposed to [256, 5, 128] and flattened to [256, 640] (`folded`): column `j` is tap
  `j / 128` of input channel `j % 128`, which is Spec's `wmat`.
-/

noncomputable section

namespace Cert.ReferenceIdeal.RunValue
open Idealize.ShloMosaic Idealize.ShloMosaic.ValueIdx
open Cert.ReferenceIdeal Cert.ReferenceIdeal.Gen Cert.ConvBn

/-- The padding value: the integer zero converted. -/
def padVal : FVec Ideal S_ .f32 := sitofp (F := Ideal) .f32 (constantI S_ 32 0#32)

theorem padVal_apply (i : S_.Idx) : (padVal : S_.Idx → EReal) i = 0 := by
  show (((0#32 : BitVec 32).toInt : ℝ) : EReal) = 0
  simp

/-- The input padded by two entries at each end of its last axis. -/
def padded (x : FVec Ideal S64x128x1024 .f32) : FVec Ideal S64x128x1028 .f32 :=
  pad S64x128x1028 ![0, 0, 2] ![0, 0, 2] ![0, 0, 0] x padVal pads_S64x128x1024_S64x128x1028_000_000_220 h_S_

/-- The weights transposed to tap-major and flattened. -/
def folded (w : FVec Ideal S256x128x5 .f32) : FVec Ideal S256x640 .f32 :=
  shapeCast S256x640 (transpose S256x5x128 [0, 2, 1] w transposes_S256x128x5_S256x5x128_0_2_1) shapeCasts_S256x5x128_S256x640

theorem padded_inside (x : FVec Ideal S64x128x1024 .f32) (b : Fin 64) (ci : Fin 128) (s : Fin 1028)
    (h2 : 2 ≤ s.val) (h3 : s.val < 1026) :
    (padded x : S64x128x1028.Idx → EReal) (ix3 b ci s) = (x : S64x128x1024.Idx → EReal) (ix3 b ci ⟨s.val - 2, by omega⟩) := by
  unfold padded
  refine pad_apply_of_inside ![0, 0, 2] ![0, 0, 2] ![0, 0, 0] x padVal pads_S64x128x1024_S64x128x1028_000_000_220 h_S_
    (ix3 b ci s) (ix3 b ci ⟨s.val - 2, by omega⟩) fun a => ?_
  match a with
  | ⟨0, _⟩ => show b.val = 0 + b.val * (0 + 1); omega
  | ⟨1, _⟩ => show ci.val = 0 + ci.val * (0 + 1); omega
  | ⟨2, _⟩ => show s.val = 2 + (s.val - 2) * (0 + 1); omega

theorem padded_outside (x : FVec Ideal S64x128x1024 .f32) (b : Fin 64) (ci : Fin 128) (s : Fin 1028)
    (h : ¬(2 ≤ s.val ∧ s.val < 1026)) :
    (padded x : S64x128x1028.Idx → EReal) (ix3 b ci s) = 0 := by
  unfold padded
  refine (pad_apply_of_not_inside ![0, 0, 2] ![0, 0, 2] ![0, 0, 0] x padVal pads_S64x128x1024_S64x128x1028_000_000_220 h_S_
    (ix3 b ci s) (2 : Fin 3) ?_).trans (padVal_apply _)
  show ¬(2 ≤ s.val ∧ (s.val - 2) % (0 + 1) = 0 ∧ (s.val - 2) / (0 + 1) < 1024)
  omega

/-- The padded array read at a natural position is Spec's padded row. -/
theorem ofPadded_padded (x : FVec Ideal S64x128x1024 .f32) :
    ofPadded (cur3 (padded x : S64x128x1028.Idx → EReal)) = xpad (cur3 (x : S64x128x1024.Idx → EReal)) := by
  funext b ci s
  unfold ofPadded xpad cur3
  by_cases hs : s < 1028
  · rw [dif_pos hs]
    by_cases h : 2 ≤ s ∧ s < 1026
    · rw [dif_pos h]
      exact padded_inside x b ci ⟨s, hs⟩ h.1 h.2
    · rw [dif_neg h]
      exact padded_outside x b ci ⟨s, hs⟩ h
  · rw [dif_neg hs, dif_neg (by omega)]

theorem folded_apply (w : FVec Ideal S256x128x5 .f32) (o : Fin 256) (j : Fin 640) :
    (folded w : S256x640.Idx → EReal) (ix2 o j) = (w : S256x128x5.Idx → EReal) (ix3 o (tapRow j) ⟨tapOff j, tapOff_lt j⟩) := by
  unfold folded
  refine (shapeCast_apply _ shapeCasts_S256x5x128_S256x640 (ix2 o j)
    (ix3 o (⟨tapOff j, tapOff_lt j⟩ : Fin 5) (tapRow j)) ?_).trans ?_
  · rw [Shape.rowMajor_val_three, Shape.rowMajor_val_two]
    show (o.val * 5 + j.val / 128) * 128 + j.val % 128 = o.val * 640 + j.val
    omega
  · refine transpose_apply [0, 2, 1] w transposes_S256x128x5_S256x5x128_0_2_1
      (ix3 o (⟨tapOff j, tapOff_lt j⟩ : Fin 5) (tapRow j)) (ix3 o (tapRow j) ⟨tapOff j, tapOff_lt j⟩) fun a => ?_
    match a with
    | ⟨0, _⟩ => rfl
    | ⟨1, _⟩ => rfl
    | ⟨2, _⟩ => rfl

/-- The folded weights are Spec's tap matrix. -/
theorem cur2_folded (w : FVec Ideal S256x128x5 .f32) :
    cur2 (folded w : S256x640.Idx → EReal) = wmat (cur3 (w : S256x128x5.Idx → EReal)) := by
  funext o j
  exact folded_apply w o j

end Cert.ReferenceIdeal.RunValue

end
-- ==== Proof.RefRun.Before.lean ====
import proofs.«172093_g2000201346594626_pallaspilot1_190_11_alg».proof.Proof.Gen.ReferenceIdeal.Frame
import proofs.«172093_g2000201346594626_pallaspilot1_190_11_alg».proof.Proof.Spec
import proofs.«172093_g2000201346594626_pallaspilot1_190_11_alg».proof.Proof.RefRun.Layout
import Idealize.ShloMosaic.Lib.Pipeline.Value
import Idealize.ShloMosaic.Lib.ValueIdx
import Idealize.ShloMosaic.Lib.StableHlo.Run

/-!
  The contents the first launch is entered with. Before it the program pads the input and folds the weights; nothing else
  writes those two arrays, and the arguments they are computed from are still as launched. So the padded array read at a
  natural position is Spec's padded row of the input argument, and the folded array is Spec's tap matrix of the weight
  argument.
-/

noncomputable section

namespace Cert.ReferenceIdeal.RunValue
open Idealize.ShloMosaic Idealize.ShloMosaic.TcCoe Idealize.ShloMosaic.ValueIdx Idealize.SL.Sem
open Idealize.ShloMosaic.Pipeline (Dat)
open Cert.ReferenceIdeal Cert.ReferenceIdeal.Gen Cert.ConvBn

variable (m : (ℓ : Loc nD τ sig) → Buf (Elt Ideal) ℓ) (ρ : Dev nD → PrngReg)

/-- The first launch's first operand is the input argument padded. -/
theorem V3_main_v0 (c : Dev nD) :
    (V3 m ρ c main_v0 : S64x128x1028.Idx → EReal) = padded (m ((c.tc : Thread nD τ).loc main_arg0)) := by
  show StableHlo.after hostOps0_2 (StableHlo.after hostOps0_1 (StableHlo.after hostOps0 (W0 m ρ c))) (Proc.devRef .tc main_v0) = _
  after_results
  rfl

/-- The first launch's second operand is the weight argument folded. -/
theorem V3_main_v2 (c : Dev nD) :
    (V3 m ρ c main_v2 : S256x640.Idx → EReal) = folded (m ((c.tc : Thread nD τ).loc main_arg1)) := by
  show StableHlo.after hostOps0_2 (StableHlo.after hostOps0_1 (StableHlo.after hostOps0 (W0 m ρ c))) (Proc.devRef .tc main_v2) = _
  after_results
  rfl

/-- Read at a natural position the first operand is Spec's padded row of the input argument. -/
theorem padded_entry (c : Dev nD) :
    ofPadded (cur3 (V3 m ρ c main_v0 : S64x128x1028.Idx → EReal))
      = xpad (cur3 (m ((c.tc : Thread nD τ).loc main_arg0) : S64x128x1024.Idx → EReal)) :=
  (congrArg (fun a : S64x128x1028.Idx → EReal => ofPadded (cur3 a)) (V3_main_v0 m ρ c)).trans (ofPadded_padded _)

/-- The second operand is Spec's tap matrix of the weight argument. -/
theorem folded_entry (c : Dev nD) :
    cur2 (V3 m ρ c main_v2 : S256x640.Idx → EReal)
      = wmat (cur3 (m ((c.tc : Thread nD τ).loc main_arg1) : S256x128x5.Idx → EReal)) :=
  (congrArg (fun a : S256x640.Idx → EReal => cur2 a) (V3_main_v2 m ρ c)).trans (cur2_folded _)

end Cert.ReferenceIdeal.RunValue

end
-- ==== Proof.RefRun.Stats.lean ====
import proofs.«172093_g2000201346594626_pallaspilot1_190_11_alg».proof.Proof.Gen.ReferenceIdeal
import proofs.«172093_g2000201346594626_pallaspilot1_190_11_alg».proof.Proof.Spec
import proofs.«172093_g2000201346594626_pallaspilot1_190_11_alg».proof.Proof.LibKeepdims
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
  The arithmetic between the two launches, as functions of arrays and read at an index.

  The statistics array `st` of shape [64, 2, 256, 2] is summed over its two leading axes from zero (`statSum`); its two
  columns are the per-channel sums `S1` and `S2`. From them: the mean `S1 / n`, the reciprocal standard deviation
  `rsqrt (S2 / n - mean * mean + ε)`, the scale column `g * rstd` and the shift column `β - (mean * g) * rstd`, each
  kept as a [256, 1] column. Read at channel `o` these are Spec's `mean`, `rstd` and the two summands of `bnR`.
-/

noncomputable section

namespace Cert.ReferenceIdeal.RunValue
open Idealize.ShloMosaic Idealize.ShloMosaic.ValueIdx
open Cert.ReferenceIdeal Cert.ReferenceIdeal.Gen Cert.ConvBn

/-- The indices of a [64, 2, 256, 2] array that keep (o, q) when the two leading axes are dropped are the (b, l, o, q):
    a sum over them is the double sum over b and l. -/
theorem sum_filter01 (h : Shape.ReducesTo S64x2x256x2 [0, 1] S256x2) (x : S64x2x256x2.Idx → EReal) (o : Fin 256) (q : Fin 2) :
    ∑ i ∈ Finset.univ.filter (fun i => h.drop i = ix2 o q), x i = ∑ b : Fin 64, ∑ l : Fin 2, x (ix4 b l o q) := by
  have hleft : ∀ i ∈ Finset.univ.filter (fun i : S64x2x256x2.Idx => h.drop i = ix2 o q),
      ix4 ((i 0 : Fin 64), (i 1 : Fin 2)).1 ((i 0 : Fin 64), (i 1 : Fin 2)).2 o q = i := by
    intro i hi
    have hd := (Finset.mem_filter.1 hi).2
    have h0 : (i 2).val = o.val := congrArg (fun j : S256x2.Idx => (j 0).val) hd
    have h1 : (i 3).val = q.val := congrArg (fun j : S256x2.Idx => (j 1).val) hd
    funext d
    match d with
    | ⟨0, _⟩ => rfl
    | ⟨1, _⟩ => rfl
    | ⟨2, _⟩ => exact Fin.ext h0.symm
    | ⟨3, _⟩ => exact Fin.ext h1.symm
  rw [← Finset.sum_product']
  refine Finset.sum_nbij' (fun i => ((i 0 : Fin 64), (i 1 : Fin 2))) (fun p => ix4 p.1 p.2 o q) ?_ ?_ hleft ?_ ?_
  · intro i _; exact Finset.mem_product.2 ⟨Finset.mem_univ _, Finset.mem_univ _⟩
  · intro p _
    refine Finset.mem_filter.2 ⟨Finset.mem_univ _, ?_⟩
    funext d
    match d with
    | ⟨0, _⟩ => rfl
    | ⟨1, _⟩ => rfl
  · intro p _; rfl
  · intro i hi; exact congrArg x (hleft i hi).symm

abbrev C256 : Type := FVec Ideal S256 .f32
abbrev C256x1 : Type := FVec Ideal S256x1 .f32
abbrev C256x2 : Type := FVec Ideal S256x2 .f32

/-- The statistics summed over batch rows and tiles, from zero. -/
def statSum (st : FVec Ideal S64x2x256x2 .f32) : C256x2 :=
  Host.reduceAdd (F := Ideal) st (constant (F := Ideal) S_ .f32 0x00000000#32) reducesTo_S64x2x256x2_S256x2_d0_1 h_S_

/-- Column 0 and column 1 of the summed statistics, as vectors over the channels. -/
def statCol0 (v : C256x2) : C256 :=
  shapeCast S256 (extractStridedSlice S256x1 ![0, 0] v slices_S256x2_S256x1_0_0) shapeCasts_S256x1_S256
def statCol1 (v : C256x2) : C256 :=
  shapeCast S256 (extractStridedSlice S256x1 ![0, 1] v slices_S256x2_S256x1_0_1) shapeCasts_S256x1_S256

/-- A float word repeated over the channels. -/
def splat (w : BitVec 32) : C256 :=
  broadcastInDim S256 ![] bcast_S_S256 (constant (F := Ideal) S_ .f32 w)

/-- The mean and the reciprocal standard deviation per channel. -/
def meanV (v : C256x2) : C256 := Host.divf (F := Ideal) (statCol0 v) (splat 0x47800000#32)
def rstdV (v : C256x2) : C256 :=
  Host.rsqrt (F := Ideal) (addf (F := Ideal) (subf (F := Ideal) (Host.divf (F := Ideal) (statCol1 v) (splat 0x47800000#32)) (mulf (F := Ideal) (meanV v) (meanV v))) (splat 0x3727C5AC#32))

/-- The scale and shift columns. -/
def scaleCol (g : C256) (v : C256x2) : C256x1 := shapeCast S256x1 (mulf (F := Ideal) g (rstdV v)) shapeCasts_S256_S256x1
def shiftCol (g β : C256) (v : C256x2) : C256x1 :=
  shapeCast S256x1 (subf (F := Ideal) β (mulf (F := Ideal) (mulf (F := Ideal) (meanV v) g) (rstdV v))) shapeCasts_S256_S256x1

theorem statSum_apply (st : FVec Ideal S64x2x256x2 .f32) (o : Fin 256) (q : Fin 2) :
    (statSum st : S256x2.Idx → EReal) (ix2 o q) = 0 + ∑ b : Fin 64, ∑ l : Fin 2, (st : S64x2x256x2.Idx → EReal) (ix4 b l o q) := by
  show Ideal.ofBits .f32 0x00000000#32
      + ∑ i ∈ Finset.univ.filter (fun i => reducesTo_S64x2x256x2_S256x2_d0_1.drop i = ix2 o q), (st : S64x2x256x2.Idx → EReal) i = _
  rw [Ideal.ofBits_zero_f32, sum_filter01]

theorem statCol0_apply (v : C256x2) (o : Fin 256) : (statCol0 v : S256.Idx → EReal) (ix1 o) = (v : S256x2.Idx → EReal) (ix2 o 0) := by
  unfold statCol0
  refine (shapeCast_apply _ shapeCasts_S256x1_S256 (ix1 o) (ix2 o (0 : Fin 1)) ?_).trans ?_
  · rw [Shape.rowMajor_val_two, Shape.rowMajor_val_one]
    show o.val * 1 + 0 = o.val
    omega
  · refine extractStridedSlice_apply ![0, 0] v slices_S256x2_S256x1_0_0 (ix2 o (0 : Fin 1)) (ix2 o (0 : Fin 2)) fun a => ?_
    match a with
    | ⟨0, _⟩ => show o.val = 0 + o.val; omega
    | ⟨1, _⟩ => show (0 : ℕ) = 0 + 0; rfl

theorem statCol1_apply (v : C256x2) (o : Fin 256) : (statCol1 v : S256.Idx → EReal) (ix1 o) = (v : S256x2.Idx → EReal) (ix2 o 1) := by
  unfold statCol1
  refine (shapeCast_apply _ shapeCasts_S256x1_S256 (ix1 o) (ix2 o (0 : Fin 1)) ?_).trans ?_
  · rw [Shape.rowMajor_val_two, Shape.rowMajor_val_one]
    show o.val * 1 + 0 = o.val
    omega
  · refine extractStridedSlice_apply ![0, 1] v slices_S256x2_S256x1_0_1 (ix2 o (0 : Fin 1)) (ix2 o (1 : Fin 2)) fun a => ?_
    match a with
    | ⟨0, _⟩ => show o.val = 0 + o.val; omega
    | ⟨1, _⟩ => show (1 : ℕ) = 1 + 0; rfl

theorem splat_apply (w : BitVec 32) (o : Fin 256) : (splat w : S256.Idx → EReal) (ix1 o) = Ideal.ofBits .f32 w := by
  unfold splat
  exact broadcastInDim_scalar_apply bcast_S_S256 _ (ix1 o)

theorem meanV_apply (v : C256x2) (o : Fin 256) : (meanV v : S256.Idx → EReal) (ix1 o) = mean ((v : S256x2.Idx → EReal) (ix2 o 0)) := by
  show Ideal.div ((statCol0 v : S256.Idx → EReal) (ix1 o)) ((splat 0x47800000#32 : S256.Idx → EReal) (ix1 o)) = _
  rw [statCol0_apply, splat_apply]
  rfl

theorem rstdV_apply (v : C256x2) (o : Fin 256) :
    (rstdV v : S256.Idx → EReal) (ix1 o) = rstd ((v : S256x2.Idx → EReal) (ix2 o 0)) ((v : S256x2.Idx → EReal) (ix2 o 1)) := by
  show Ideal.rsqrt (Ideal.div ((statCol1 v : S256.Idx → EReal) (ix1 o)) ((splat 0x47800000#32 : S256.Idx → EReal) (ix1 o))
      - (meanV v : S256.Idx → EReal) (ix1 o) * (meanV v : S256.Idx → EReal) (ix1 o) + (splat 0x3727C5AC#32 : S256.Idx → EReal) (ix1 o)) = _
  rw [statCol1_apply, splat_apply, splat_apply, meanV_apply]
  rfl

theorem scaleCol_apply (g : C256) (v : C256x2) (o : Fin 256) :
    (scaleCol g v : S256x1.Idx → EReal) (ix2 o 0)
      = (g : S256.Idx → EReal) (ix1 o) * rstd ((v : S256x2.Idx → EReal) (ix2 o 0)) ((v : S256x2.Idx → EReal) (ix2 o 1)) := by
  unfold scaleCol
  refine (Cert.Keepdims.shapeCast_a_a1_apply _ shapeCasts_S256_S256x1 o 0).trans ?_
  show (g : S256.Idx → EReal) (ix1 o) * (rstdV v : S256.Idx → EReal) (ix1 o) = _
  rw [rstdV_apply]

theorem shiftCol_apply (g β : C256) (v : C256x2) (o : Fin 256) :
    (shiftCol g β v : S256x1.Idx → EReal) (ix2 o 0)
      = (β : S256.Idx → EReal) (ix1 o) - mean ((v : S256x2.Idx → EReal) (ix2 o 0)) * (g : S256.Idx → EReal) (ix1 o)
          * rstd ((v : S256x2.Idx → EReal) (ix2 o 0)) ((v : S256x2.Idx → EReal) (ix2 o 1)) := by
  unfold shiftCol
  refine (Cert.Keepdims.shapeCast_a_a1_apply _ shapeCasts_S256_S256x1 o 0).trans ?_
  show (β : S256.Idx → EReal) (ix1 o) - (meanV v : S256.Idx → EReal) (ix1 o) * (g : S256.Idx → EReal) (ix1 o) * (rstdV v : S256.Idx → EReal) (ix1 o) = _
  rw [rstdV_apply, meanV_apply]

end Cert.ReferenceIdeal.RunValue

end
-- ==== Proof.RefRun.Between.lean ====
import proofs.«172093_g2000201346594626_pallaspilot1_190_11_alg».proof.Proof.Gen.ReferenceIdeal.Frame
import proofs.«172093_g2000201346594626_pallaspilot1_190_11_alg».proof.Proof.Spec
import proofs.«172093_g2000201346594626_pallaspilot1_190_11_alg».proof.Proof.RefRun.Stats
import Idealize.ShloMosaic.Lib.Pipeline.Value
import Idealize.ShloMosaic.Lib.ValueIdx
import Idealize.ShloMosaic.Lib.StableHlo.Run

/-!
  The contents the second launch is entered with. Between the launches the program sums the statistics array and forms the
  scale and shift columns from the sums and the third and fourth arguments; it writes neither the intermediate array nor
  an argument. So the second launch's operands are the first launch's intermediate array, the scale column and the shift
  column of the first launch's statistics array and the two arguments as launched.
-/

noncomputable section

namespace Cert.ReferenceIdeal.RunValue
open Idealize.ShloMosaic Idealize.ShloMosaic.TcCoe Idealize.ShloMosaic.ValueIdx Idealize.SL.Sem
open Idealize.ShloMosaic.Pipeline (Dat)
open Cert.ReferenceIdeal Cert.ReferenceIdeal.Gen Cert.ConvBn

variable (m : (ℓ : Loc nD τ sig) → Buf (Elt Ideal) ℓ) (ρ : Dev nD → PrngReg)

/-- The stretch between the launches writes no argument and not the intermediate array. -/
theorem W5_main_arg2 (c : Dev nD) : W5 m ρ c (Proc.devRef .tc main_arg2) = W4 m ρ c (Proc.devRef .tc main_arg2) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W5_main_arg3 (c : Dev nD) : W5 m ρ c (Proc.devRef .tc main_arg3) = W4 m ρ c (Proc.devRef .tc main_arg3) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W5_main_v3_0 (c : Dev nD) : W5 m ρ c (Proc.devRef .tc main_v3_0) = W4 m ρ c (Proc.devRef .tc main_v3_0) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- At the first launch's exit the third and fourth arguments are as launched: the second launch and the stretch before
    it leave them, and at the end they are as launched. -/
theorem W4_main_arg2 (c : Dev nD) : W4 m ρ c (Proc.devRef .tc main_arg2) = m ((c.tc : Thread nD τ).loc main_arg2) :=
  ((W5_main_arg2 m ρ c).symm.trans (W6_of_ne m ρ c main_arg2 (by decide)).symm).trans (W6_main_arg2 m ρ c)
theorem W4_main_arg3 (c : Dev nD) : W4 m ρ c (Proc.devRef .tc main_arg3) = m ((c.tc : Thread nD τ).loc main_arg3) :=
  ((W5_main_arg3 m ρ c).symm.trans (W6_of_ne m ρ c main_arg3 (by decide)).symm).trans (W6_main_arg3 m ρ c)

/-- The second launch's scale operand is the scale column of the summed statistics. -/
theorem V5_main_v19 (c : Dev nD) :
    (V5 m ρ c main_v19 : S256x1.Idx → EReal)
      = scaleCol (W4 m ρ c (Proc.devRef .tc main_arg2)) (statSum (W4 m ρ c (Proc.devRef .tc main_v3_1))) := by
  show StableHlo.after hostOps1 (W4 m ρ c) (Proc.devRef .tc main_v19) = _
  after_results
  rfl

/-- The second launch's shift operand is the shift column of the summed statistics. -/
theorem V5_main_v23 (c : Dev nD) :
    (V5 m ρ c main_v23 : S256x1.Idx → EReal)
      = shiftCol (W4 m ρ c (Proc.devRef .tc main_arg2)) (W4 m ρ c (Proc.devRef .tc main_arg3))
          (statSum (W4 m ρ c (Proc.devRef .tc main_v3_1))) := by
  show StableHlo.after hostOps1 (W4 m ρ c) (Proc.devRef .tc main_v23) = _
  after_results_simp
  rfl

end Cert.ReferenceIdeal.RunValue

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.RefRun.Algebra.lean ====
import proofs.«172093_g2000201346594626_pallaspilot1_190_11_alg».proof.Proof.Spec
import proofs.«172093_g2000201346594626_pallaspilot1_190_11_alg».proof.Proof.LibSumBlocks

/-!
  The moments taken tile by tile. A channel's moment numerator is a sum over 64 batch rows and 1024 positions; the
  positions are two consecutive tiles of 512, so the sum over rows, tiles and positions within a tile of the same terms
  is the same number (sums in the extended reals are associative and commutative).
-/

noncomputable section

namespace Cert.ConvBn

/-- The sum over batch rows, tiles and the 512 positions of a tile is Spec's moment. -/
theorem moment_blocks (A : Fin 64 → Fin 256 → ℕ → EReal) (q : ℕ) (o : Fin 256) :
    ∑ b : Fin 64, ∑ l : Fin 2, ∑ s : Fin 512, pw q (A b o (l.val * 512 + s.val)) = moment A q o := by
  unfold moment
  refine Finset.sum_congr rfl fun b _ => ?_
  refine Eq.symm ((Cert.Lib.SumBlocks.sum_fin_blocks 2 512 (by norm_num) (fun t : Fin 1024 => pw q (A b o t.val))).trans ?_)
  rw [Finset.sum_range]
  refine Finset.sum_congr rfl fun l _ => Finset.sum_congr rfl fun s _ => ?_
  exact Cert.Lib.SumBlocks.onNat_of_lt _ _ (by have := l.isLt; have := s.isLt; omega)

end Cert.ConvBn

end
-- ==== Proof.RefRun.lean ====
/-
  The reference program's result as ONE function of its four argument arrays. The first launch, entered with the input
  padded and the weights folded, writes the clamped convolution of the arguments and, per batch row and tile of 512
  positions, the sums of its values and of their squares. Between the launches these are summed over rows and tiles —
  the moments over all 64 · 1024 positions — and turned into a scale and a shift column; the second launch multiplies
  and adds. Index by index this is `Cert.ConvBn.outArr`, the shift's product being associated as in `bnR`.
-/
import proofs.«172093_g2000201346594626_pallaspilot1_190_11_alg».proof.Proof.Gen.ReferenceIdeal.Frame
import proofs.«172093_g2000201346594626_pallaspilot1_190_11_alg».proof.Proof.Spec
import proofs.«172093_g2000201346594626_pallaspilot1_190_11_alg».proof.Proof.RefConv
import proofs.«172093_g2000201346594626_pallaspilot1_190_11_alg».proof.Proof.RefApply
import proofs.«172093_g2000201346594626_pallaspilot1_190_11_alg».proof.Proof.RefNamed
import proofs.«172093_g2000201346594626_pallaspilot1_190_11_alg».proof.Proof.RefRun.Before
import proofs.«172093_g2000201346594626_pallaspilot1_190_11_alg».proof.Proof.RefRun.Between
import proofs.«172093_g2000201346594626_pallaspilot1_190_11_alg».proof.Proof.RefRun.Algebra
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.ReferenceIdeal.RunValue
open Idealize.ShloMosaic Idealize.ShloMosaic.TcCoe Idealize.ShloMosaic.ValueIdx Idealize.SL.Sem
open Idealize.ShloMosaic.Pipeline (Dat)
open Cert.ReferenceIdeal Cert.ReferenceIdeal.Gen Cert.ConvBn

variable (m : (ℓ : Loc nD τ sig) → Buf (Elt Ideal) ℓ) (ρ : Dev nD → PrngReg)

/-- The clamped convolution of the launch arrays. -/
def convAct (c : Dev nD) : Fin 64 → Fin 256 → ℕ → EReal :=
  act (xpad (cur3 (m ((c.tc : Thread nD τ).loc main_arg0) : S64x128x1024.Idx → EReal)))
    (wmat (cur3 (m ((c.tc : Thread nD τ).loc main_arg1) : S256x128x5.Idx → EReal)))

/-- The intermediate array the second launch reads is the clamped convolution. -/
theorem y_at (c : Dev nD) (b : Fin 64) (o : Fin 256) (t : Fin 1024) :
    cur3 (α := EReal) (V5 m ρ c main_v3_0 : S64x256x1024.Idx → EReal) b o t = convAct m c b o t.val := by
  have e : @Eq (S64x256x1024.Idx → EReal) (V5 m ρ c main_v3_0) ((dat0 (F := Ideal) (V3 m ρ) c).arrAt 2 cfg0.N) :=
    (W5_main_v3_0 m ρ c).trans (W4_arr m ρ c 2)
  refine (congrFun e (ix3 b o t)).trans ?_
  refine (ConvValue.y_eq (V3 m ρ) c (ix3 b o t)).trans ?_
  exact congrArg₂ (fun P W => act P W b o t.val) (padded_entry m ρ c) (folded_entry m ρ c)

/-- The statistics array at (b, l, o, q) is the sum over tile `l` of the clamped convolution's values or squares. -/
theorem stat_at (c : Dev nD) (b : Fin 64) (l : Fin 2) (o : Fin 256) (q : Fin 2) :
    (W4 m ρ c (Proc.devRef .tc main_v3_1) : S64x2x256x2.Idx → EReal) (ix4 b l o q)
      = ∑ s : Fin 512, pw q.val (convAct m c b o (l.val * 512 + s.val)) := by
  have e : @Eq (S64x2x256x2.Idx → EReal) (W4 m ρ c (Proc.devRef .tc main_v3_1)) ((dat0 (F := Ideal) (V3 m ρ) c).arrAt 3 cfg0.N) :=
    W4_arr m ρ c 3
  refine (congrFun e (ix4 b l o q)).trans ?_
  refine (ConvValue.stats_eq (V3 m ρ) c (ix4 b l o q)).trans ?_
  exact congrArg₂ (fun P W => ∑ s : Fin 512, pw q.val (act P W b o (l.val * 512 + s.val))) (padded_entry m ρ c) (folded_entry m ρ c)

/-- Summed over batch rows and tiles from zero, the statistics are the moments of the clamped convolution. -/
theorem sum_at (c : Dev nD) (o : Fin 256) (q : Fin 2) :
    (statSum (W4 m ρ c (Proc.devRef .tc main_v3_1)) : S256x2.Idx → EReal) (ix2 o q) = moment (convAct m c) q.val o := by
  refine (statSum_apply _ o q).trans ?_
  rw [zero_add]
  refine Eq.trans ?_ (moment_blocks (convAct m c) q.val o)
  exact Finset.sum_congr rfl fun b _ => Finset.sum_congr rfl fun l _ => stat_at m ρ c b l o q

/-- The scale column the second launch reads. -/
theorem scale_at (c : Dev nD) (o : Fin 256) :
    cur2 (α := EReal) (V5 m ρ c main_v19 : S256x1.Idx → EReal) o 0
      = cur1 (α := EReal) (m ((c.tc : Thread nD τ).loc main_arg2) : S256.Idx → EReal) o
          * rstd (moment (convAct m c) 0 o) (moment (convAct m c) 1 o) := by
  refine (congrFun (V5_main_v19 m ρ c) (ix2 o 0)).trans ?_
  refine (scaleCol_apply _ _ o).trans ?_
  rw [sum_at m ρ c o 0, sum_at m ρ c o 1, W4_main_arg2 m ρ c]
  rfl

/-- The shift column the second launch reads. -/
theorem shift_at (c : Dev nD) (o : Fin 256) :
    cur2 (α := EReal) (V5 m ρ c main_v23 : S256x1.Idx → EReal) o 0
      = cur1 (α := EReal) (m ((c.tc : Thread nD τ).loc main_arg3) : S256.Idx → EReal) o
          - mean (moment (convAct m c) 0 o) * cur1 (α := EReal) (m ((c.tc : Thread nD τ).loc main_arg2) : S256.Idx → EReal) o
            * rstd (moment (convAct m c) 0 o) (moment (convAct m c) 1 o) := by
  refine (congrFun (V5_main_v23 m ρ c) (ix2 o 0)).trans ?_
  refine (shiftCol_apply _ _ _ o).trans ?_
  rw [sum_at m ρ c o 0, sum_at m ρ c o 1, W4_main_arg2 m ρ c, W4_main_arg3 m ρ c]
  rfl

/-- The result array after the run is `outArr` of the launch arrays. -/
theorem result_eq (c : Dev nD) :
    W6 m ρ c (Proc.devRef .tc main_v24)
      = outArr (m ((c.tc : Thread nD τ).loc main_arg0)) (m ((c.tc : Thread nD τ).loc main_arg1))
          (m ((c.tc : Thread nD τ).loc main_arg2)) (m ((c.tc : Thread nD τ).loc main_arg3)) := by
  refine (W6_arr m ρ c 3).trans ?_
  refine funext fun (i : S64x256x1024.Idx) => ?_
  refine (ApplyValue.out_eq (V5 m ρ) c i).trans ?_
  refine Eq.trans ?_ (bnR_eq_bnK (moment (convAct m c) 0 (i 1)) (moment (convAct m c) 1 (i 1))
    (cur1 (α := EReal) (m ((c.tc : Thread nD τ).loc main_arg2) : S256.Idx → EReal) (i 1))
    (cur1 (α := EReal) (m ((c.tc : Thread nD τ).loc main_arg3) : S256.Idx → EReal) (i 1))
    (convAct m c (i 0) (i 1) (i 2).val))
  exact congrArg₂ (· + ·) (congrArg₂ (· * ·) (y_at m ρ c (i 0) (i 1) (i 2)) (scale_at m ρ c (i 1))) (shift_at m ρ c (i 1))

/-- Every weakly fair execution of the program ends, without a fault, with the result array at the one function `outArr` of the four argument arrays, and the arguments as launched. -/
theorem run :
    θ_run (defs (F := Ideal)) (onTc (τ := τ) (main (F := Ideal))) ⟨m, fun _ => 0, ρ⟩ (fun r => ∀ c : Dev nD,
      r.2.mem ((c.tc : Thread nD τ).loc main_v24)
          = outArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (result_eq m ρ c), (h c).2⟩) (run_named (F := Ideal) m ρ)

end Cert.ReferenceIdeal.RunValue
end
-- ==== Proof.lean ====
/-
  Conv1d (5 taps, two zeros of padding at each end, no bias) → ReLU → BatchNorm1d with batch statistics, on
  f32[64, 128, 1024] with weights f32[256, 128, 5] and per-channel scale and offset f32[256]: a kernel program of two
  launches against a reference that is itself two launches with host operations between them. At the ideal
  instance both compute ONE function of the four arrays, `Cert.ConvBn.outArr` (Proof/Spec.lean):

    A(b, o, t)  = max (∑ j : Fin 640, W(o, j) · xpad(b, j % 128, t + j / 128)) 0      the clamped convolution,
    S_q(o)      = ∑ b, ∑ t, A(b, o, t)^(q+1)                                          its two moments per channel,
    out(b, o, t) = A(b, o, t) · (g(o) · r(o)) + (β(o) − mean(o) · (g(o) · r(o))),   r = rsqrt (S_1/N − mean² + ε).

  The kernel pads each row inside its body, sums each whole row of 1024 positions, and folds scale and offset inside
  its second body; the reference pads on the host, sums tiles of 512 positions, reduces the per-tile sums over batch
  rows and tiles on the host and associates the offset's product the other way. The laws that join the two are the
  commutative-monoid laws of the extended reals: a finite sum regrouped into blocks, `0 + x = x`, and the
  associativity of the product — none needs finiteness, so the precondition is never opened. Rounding to bf16 and back
  is the identity at the ideal instance, and the idealization rewrote nothing, so `preserves` is `True`.
  The three frames are the generated ones.
-/
import proofs.«172093_g2000201346594626_pallaspilot1_190_11_alg».proof.Defs
import proofs.«172093_g2000201346594626_pallaspilot1_190_11_alg».proof.Proof.Gen.Kernel
import proofs.«172093_g2000201346594626_pallaspilot1_190_11_alg».proof.Proof.Gen.Kernel.Frame
import proofs.«172093_g2000201346594626_pallaspilot1_190_11_alg».proof.Proof.Gen.KernelIdeal
import proofs.«172093_g2000201346594626_pallaspilot1_190_11_alg».proof.Proof.Gen.KernelIdeal.Frame
import proofs.«172093_g2000201346594626_pallaspilot1_190_11_alg».proof.Proof.Gen.ReferenceIdeal
import proofs.«172093_g2000201346594626_pallaspilot1_190_11_alg».proof.Proof.Gen.ReferenceIdeal.Frame
import proofs.«172093_g2000201346594626_pallaspilot1_190_11_alg».proof.Proof.Gen.Pre_finite_inputs
import proofs.«172093_g2000201346594626_pallaspilot1_190_11_alg».proof.Proof.Spec
import proofs.«172093_g2000201346594626_pallaspilot1_190_11_alg».proof.Proof.KerRun
import proofs.«172093_g2000201346594626_pallaspilot1_190_11_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- Both programs end with their result at `outArr` of their own launch arrays, and the launch arrays agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun r h c => ⟨(h c).1.trans ?_, (h c).2⟩)
    (Cert.ReferenceIdeal.RunValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
